-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S10000x10000 : Shape := ⟨2, ![10000, 10000]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_

variable [Facts]

def fn {F : FTy → Type} [FloatOps F] (main_arg0 : FVec F S10000x256 .f32) (main_arg1 : FVec F S10000x10000 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  main_v8
-- ==== Kernel.lean ====
abbrev S10000x256 : Shape := ⟨2, ![10000, 256]⟩
abbrev S10000x10000 : Shape := ⟨2, ![10000, 10000]⟩
abbrev S80x10000 : Shape := ⟨2, ![80, 10000]⟩
abbrev S400x256 : Shape := ⟨2, ![400, 256]⟩
abbrev S80x256 : Shape := ⟨2, ![80, 256]⟩

abbrev nBuf : Space → Nat
  | .hbm => 3
  | .vmem => 14
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S10000x256, .f32⟩
  | .local _ .vmem, ⟨0, _⟩ => ⟨S10000x256, .f32⟩
  | .local _ .vmem, ⟨1, _⟩ => ⟨S80x10000, .f32⟩
  | .local _ .vmem, ⟨2, _⟩ => ⟨S80x10000, .f32⟩
  | .local _ .vmem, ⟨3, _⟩ => ⟨S80x10000, .f32⟩
  | .local _ .vmem, ⟨4, _⟩ => ⟨S80x10000, .f32⟩
  | .local _ .vmem, ⟨5, _⟩ => ⟨S80x10000, .f32⟩
  | .local _ .vmem, ⟨6, _⟩ => ⟨S80x10000, .f32⟩
  | .local _ .vmem, ⟨7, _⟩ => ⟨S80x10000, .f32⟩
  | .local _ .vmem, ⟨8, _⟩ => ⟨S80x10000, .f32⟩
  | .local _ .vmem, ⟨9, _⟩ => ⟨S80x10000, .f32⟩
  | .local _ .vmem, ⟨10, _⟩ => ⟨S80x10000, .f32⟩
  | .local _ .vmem, ⟨11, _⟩ => ⟨S400x256, .f32⟩
  | .local _ .vmem, ⟨12, _⟩ => ⟨S400x256, .f32⟩
  | .local _ .vmem, ⟨13, _⟩ => ⟨S10000x256, .bf16⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c5_i32 : BitVec 32 := 5#32
  let v0 : BitVec 32 := Scalar.muli c5_i32 arg0
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c5_i32 : BitVec 32 := 5#32
  let v0 : BitVec 32 := Scalar.muli c5_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let c5_i32 : BitVec 32 := 5#32
  let v0 : BitVec 32 := Scalar.muli c5_i32 arg0
  let c2_i32 : BitVec 32 := 2#32
  let v1 : BitVec 32 := Scalar.addi v0 c2_i32
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let c5_i32 : BitVec 32 := 5#32
  let v0 : BitVec 32 := Scalar.muli c5_i32 arg0
  let c3_i32 : BitVec 32 := 3#32
  let v1 : BitVec 32 := Scalar.addi v0 c3_i32
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let c5_i32 : BitVec 32 := 5#32
  let v0 : BitVec 32 := Scalar.muli c5_i32 arg0
  let c4_i32 : BitVec 32 := 4#32
  let v1 : BitVec 32 := Scalar.addi v0 c4_i32
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S80x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S80x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S80x10000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S80x10000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S80x10000 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S400x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  inb_S10000x256_S10000x256_0_0 : ∀ a, (![0, 0] : Fin 2 → Nat) a + S10000x256.size a ≤ S10000x256.size a
  h_S10000x256 : 0 < S10000x256.numel
  bitsLt_bf16_f32 : FTy.bits .bf16 < FTy.bits .f32
  shapeCasts_S10000x256_S10000x256 : S10000x256.ShapeCasts S10000x256
  packedbf16_S10000x256_S10000x256_0_0 : (Rect.unit (s := S10000x256) ![0, 0] S10000x256.size inb_S10000x256_S10000x256_0_0).PackedRows (EltTy.packing .bf16)
  inb_S80x10000_S80x10000_0_0 : ∀ a, (![0, 0] : Fin 2 → Nat) a + S80x10000.size a ≤ S80x10000.size a
  h_S80x10000 : 0 < S80x10000.numel
  inb_S400x256_S80x256_0_0 : ∀ a, (![0, 0] : Fin 2 → Nat) a + S80x256.size a ≤ S400x256.size a
  h_S80x256 : 0 < S80x256.numel
  inb_S400x256_S80x256_80_0 : ∀ a, (![80, 0] : Fin 2 → Nat) a + S80x256.size a ≤ S400x256.size a
  inb_S400x256_S80x256_160_0 : ∀ a, (![160, 0] : Fin 2 → Nat) a + S80x256.size a ≤ S400x256.size a
  inb_S400x256_S80x256_240_0 : ∀ a, (![240, 0] : Fin 2 → Nat) a + S80x256.size a ≤ S400x256.size a
  inb_S400x256_S80x256_320_0 : ∀ a, (![320, 0] : Fin 2 → Nat) a + S80x256.size a ≤ S400x256.size a
  dot_S80x10000_S10000x256_S80x256_1_0_0_1_n_n_wf : DotDims.WF S80x10000 S10000x256 S80x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x256.size a ≤ S10000x256.size a
  hwx0_0 : ∀ i : grid0.Coords, EltTy.bits .f32 = 32 ∨ (Rect.block (s := S10000x256) S10000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S80x10000.size a ≤ S10000x10000.size a
  hwx0_1 : ∀ i : grid0.Coords, EltTy.bits .f32 = 32 ∨ (Rect.block (s := S10000x10000) S80x10000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S80x10000.size a ≤ S10000x10000.size a
  hwx0_2 : ∀ i : grid0.Coords, EltTy.bits .f32 = 32 ∨ (Rect.block (s := S10000x10000) S80x10000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S80x10000.size a ≤ S10000x10000.size a
  hwx0_3 : ∀ i : grid0.Coords, EltTy.bits .f32 = 32 ∨ (Rect.block (s := S10000x10000) S80x10000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S80x10000.size a ≤ S10000x10000.size a
  hwx0_4 : ∀ i : grid0.Coords, EltTy.bits .f32 = 32 ∨ (Rect.block (s := S10000x10000) S80x10000.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S80x10000.size a ≤ S10000x10000.size a
  hwx0_5 : ∀ i : grid0.Coords, EltTy.bits .f32 = 32 ∨ (Rect.block (s := S10000x10000) S80x10000.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x256.size a ≤ S10000x256.size a
  hwx0_6 : ∀ i : grid0.Coords, EltTy.bits .f32 = 32 ∨ (Rect.block (s := S10000x256) S400x256.size (cc0_transform_6 i) (hinb0_6 i)).WholeWords (EltTy.packing .f32)

variable [Facts₀]

def dot_S80x10000_S10000x256_S80x256_1_0_0_1_n_n : DotDims S80x10000 S10000x256 S80x256 where
  lhsContracting := [1]
  rhsContracting := [0]
  lhsNonContracting := [0]
  rhsNonContracting := [1]
  lhsBatch := []
  rhsBatch := []
  wf := dot_S80x10000_S10000x256_S80x256_1_0_0_1_n_n_wf

abbrev win0_0 : Pipeline.Window sig grid0 :=
  Pipeline.Window.ofSpec (Memref.whole main_arg0) S10000x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S80x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S80x10000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S80x10000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S80x10000.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg1) S80x10000.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0) S400x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S10000x256 : Shape := ⟨2, ![10000, 256]⟩
abbrev S10000x10000 : Shape := ⟨2, ![10000, 10000]⟩

abbrev nBuf : Space → Nat
  | .hbm => 3
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S10000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S10000x10000_S10000x256_S10000x256_1_0_0_1_n_n_wf : DotDims.WF S10000x10000 S10000x256 S10000x256 [1] [0] [0] [1] [] []

variable [Facts₀]

def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf

class Facts : Prop extends Facts₀ where

variable [Facts]
-- ==== Proof.KSetup.lean ====
/-
  The pipeline of the one kernel launch, prepared for its run: the contents the launch finds in each buffer,
  each window's block of its array at a grid point, the fact that an input window's staging buffer holds that
  block whenever the body is entered, the one condition the body branches on (the first grid point), and the
  names of the staging buffers the body is called with. Stated for any float instance.
-/
import proofs.«115504_g532575945055_cont_9to1_m_783_14_alg».proof.Proof.Gen.Kernel.Launch
import proofs.«115504_g532575945055_cont_9to1_m_783_14_alg».proof.Proof.Gen.Kernel.Skeleton
import proofs.«115504_g532575945055_cont_9to1_m_783_14_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers as the launch finds them, and the windows' blocks -/

/-- There is no host operation before the launch: every buffer holds its initial contents. -/
abbrev V (c : Dev nD) (b : Ref sig .tc) : Buf (Elt F) ((c : Thread nD τ).loc b) := m ((c : Thread nD τ).loc b)

/-- Window `w`'s block at grid point `t`, read off the window's array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds the window's block of the argument array at every point,
    whether the pipeline fetched it there or kept it from the point before, once the proof data say the body
    leaves that block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds the window's block of the argument array at every point,
    whether the pipeline fetched it there or kept it from the point before, once the proof data say the body
    leaves that block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds the window's block of the argument array at every point,
    whether the pipeline fetched it there or kept it from the point before, once the proof data say the body
    leaves that block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds the window's block of the argument array at every point,
    whether the pipeline fetched it there or kept it from the point before, once the proof data say the body
    leaves that block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds the window's block of the argument array at every point,
    whether the pipeline fetched it there or kept it from the point before, once the proof data say the body
    leaves that block in place. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds the window's block of the argument array at every point,
    whether the pipeline fetched it there or kept it from the point before, once the proof data say the body
    leaves that block in place. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's one branch: the first grid point -/

/-- The condition of the body's conditional, from the grid coordinate. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val = 0 :=
  (by decide +kernel : ∀ t : Fin grid0.N, cond0_0 (grid0.coords t) ↔ t.val = 0)

/-! ## The staging buffers the body is called with -/

abbrev ms0_0 (t : Fin cfg0.N) := win0_0.stage (cfg0.slots t 0)
abbrev hs0_0 (t : Fin cfg0.N) : (ms0_0 t).IsWhole := hstage0_0 ((cfg0.slots t 0).cast nbuf0_0)
abbrev ms0_1 (t : Fin cfg0.N) := win0_1.stage (cfg0.slots t 1)
abbrev hs0_1 (t : Fin cfg0.N) : (ms0_1 t).IsWhole := hstage0_1 ((cfg0.slots t 1).cast nbuf0_1)
abbrev ms0_2 (t : Fin cfg0.N) := win0_2.stage (cfg0.slots t 2)
abbrev hs0_2 (t : Fin cfg0.N) : (ms0_2 t).IsWhole := hstage0_2 ((cfg0.slots t 2).cast nbuf0_2)
abbrev ms0_3 (t : Fin cfg0.N) := win0_3.stage (cfg0.slots t 3)
abbrev hs0_3 (t : Fin cfg0.N) : (ms0_3 t).IsWhole := hstage0_3 ((cfg0.slots t 3).cast nbuf0_3)
abbrev ms0_4 (t : Fin cfg0.N) := win0_4.stage (cfg0.slots t 4)
abbrev hs0_4 (t : Fin cfg0.N) : (ms0_4 t).IsWhole := hstage0_4 ((cfg0.slots t 4).cast nbuf0_4)
abbrev ms0_5 (t : Fin cfg0.N) := win0_5.stage (cfg0.slots t 5)
abbrev hs0_5 (t : Fin cfg0.N) : (ms0_5 t).IsWhole := hstage0_5 ((cfg0.slots t 5).cast nbuf0_5)
abbrev ms0_6 (t : Fin cfg0.N) := win0_6.stage (cfg0.slots t 6)
abbrev hs0_6 (t : Fin cfg0.N) : (ms0_6 t).IsWhole := hstage0_6 ((cfg0.slots t 6).cast nbuf0_6)
/-- The scratch buffer, whole: the narrowed copy of the first operand the body keeps between grid points. -/
abbrev scM : Memref sig .tc .vmem S10000x256 .bf16 := Memref.whole cc0_scratch0
/-- The scratch buffer as a view: what it holds is stated through it. -/
abbrev VS : View sig .tc .vmem S10000x256 .bf16 := (scM : Memref sig .tc .vmem S10000x256 .bf16).view
/-- One staging buffer of the output window, through which the output block's contents are stated. -/
abbrev VO : View sig .tc .vmem S400x256 .f32 := (Memref.whole cc0_stg6_0 : Memref sig .tc .vmem S400x256 .f32).view

/-- The core's scoped buffers that the pipeline does not stage are the scratch buffer alone, held whole at some contents. -/
theorem scopedRest_owns (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; try rfl

end Cert.Kernel.Hand

end
-- ==== Proof.KRunFirst.lean ====
/-
  The kernel body at the FIRST grid point, run once on any whole staging buffers: the conditional is taken, so
  the body narrows the whole first operand into the scratch buffer, reads it back, and stores the five
  products into the five row bands of the output block. The pieces the output block and the scratch buffer
  end with are found by running the body.
-/
import proofs.«115504_g532575945055_cont_9to1_m_783_14_alg».proof.Proof.KSetup

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At a point where the conditional is taken: from the inputs' staging buffers at their contents, the output's and the
    scratch at anything, the body runs to its end, the inputs as they were, the output's buffer and the scratch with the
    found pieces written. -/
noncomputable def runFirst (c : Dev nD) (i : grid0.Coords) (arg1 : Memref sig .tc .vmem S10000x256 .f32) (harg1 : arg1.IsWhole) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S80x10000 .f32) (harg6 : arg6.IsWhole) (arg7 : Memref sig .tc .vmem S400x256 .f32) (harg7 : arg7.IsWhole) (arg8 : Memref sig .tc .vmem S10000x256 .bf16) (harg8 : arg8.IsWhole) (hc0 : cond0_0 i)
    (x0 : Vec F S10000x256 .f32) (x1 x2 x3 x4 x5 : Vec F S80x10000 .f32) :
    Σ' (L6 : List (View.Piece (Elt F) S400x256 .f32)), { LS0 : List (View.Piece (Elt F) S10000x256 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0)) -∗ K ⟨⟩))
          ⊢ wp frame (wpE (defs₀ (F := F)) Variants.none c none) E (cc0__mm_kernel i arg1 harg1 arg2 harg2 arg3 harg3 arg4 harg4 arg5 harg5 arg6 harg6 arg7 harg7 arg8 harg8) K } := by
  refine ⟨?_, ?_, fun E K => ?run⟩
  case run =>
    simp only [cc0__mm_kernel_eq_skeleton]; unfold cc0__mm_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    sl_exec (disch := exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; iexact HS0

end Cert.Kernel.Hand

end
-- ==== Proof.KRunLater.lean ====
/-
  The kernel body at every LATER grid point, run once on any whole staging buffers: the conditional is not
  taken, so the scratch buffer is only read — it still holds what the first point stored — and the five
  products are stored into the five row bands of the output block.
-/
import proofs.«115504_g532575945055_cont_9to1_m_783_14_alg».proof.Proof.KRunFirst

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At a point where the conditional is not taken: from the inputs' staging buffers and the scratch at their contents,
    the output's at anything, the body runs to its end, the inputs and the scratch as they were, the output's buffer
    with the found pieces written. -/
noncomputable def runLater (c : Dev nD) (i : grid0.Coords) (arg1 : Memref sig .tc .vmem S10000x256 .f32) (harg1 : arg1.IsWhole) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S80x10000 .f32) (harg6 : arg6.IsWhole) (arg7 : Memref sig .tc .vmem S400x256 .f32) (harg7 : arg7.IsWhole) (arg8 : Memref sig .tc .vmem S10000x256 .bf16) (harg8 : arg8.IsWhole) (hc0 : ¬cond0_0 i)
    (x0 : Vec F S10000x256 .f32) (x1 x2 x3 x4 x5 : Vec F S80x10000 .f32) (xs0 : Vec F S10000x256 .bf16) :
    { L6 : List (View.Piece (Elt F) S400x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xs0) -∗ K ⟨⟩))
          ⊢ wp frame (wpE (defs₀ (F := F)) Variants.none c none) E (cc0__mm_kernel i arg1 harg1 arg2 harg2 arg3 harg3 arg4 harg4 arg5 harg5 arg6 harg6 arg7 harg7 arg8 harg8) K } := by
  refine ⟨?_, fun E K => ?run⟩
  case run =>
    simp only [cc0__mm_kernel_eq_skeleton]; unfold cc0__mm_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg8.eq_unread hfs0
    sl_exec (disch := exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; isplitr; · ipureintro; exact harg8.read_unread _
    iexact HS0

end Cert.Kernel.Hand

end
-- ==== Proof.KFrame.lean ====
/-
  The run of the whole launch. After each grid point the output window's staging buffer holds the five products the
  body stored there, and from the first point on the scratch buffer holds the narrowed first operand; between
  points that is the invariant. The second operand is handed to five input windows at once, so its buffer's
  full share is dealt among them in five parts. From these the launch theorem gives: every execution ends, with
  every array of the pipeline at what the write-backs leave in it.
-/
import proofs.«115504_g532575945055_cont_9to1_m_783_14_alg».proof.Proof.KRunLater

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body leaves -/

/-- The grid's first point. -/
abbrev t₀ : Fin cfg0.N := ⟨0, Nat.lt_of_lt_of_eq (by decide : 0 < 25) N_0.symm⟩

theorem coverFirst6 (c : Dev nD) (i : grid0.Coords) (arg1 : Memref sig .tc .vmem S10000x256 .f32) (harg1 : arg1.IsWhole) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S80x10000 .f32) (harg6 : arg6.IsWhole) (arg7 : Memref sig .tc .vmem S400x256 .f32) (harg7 : arg7.IsWhole) (arg8 : Memref sig .tc .vmem S10000x256 .bf16) (harg8 : arg8.IsWhole) (hc0 : cond0_0 i) (x0 : Vec F S10000x256 .f32) (x1 x2 x3 x4 x5 : Vec F S80x10000 .f32) (y : S400x256.Idx) :
    ∃ pc ∈ (runFirst c i arg1 harg1 arg2 harg2 arg3 harg3 arg4 harg4 arg5 harg5 arg6 harg6 arg7 harg7 arg8 harg8 hc0 x0 x1 x2 x3 x4 x5).1, y ∈ pc.1.set :=
  View.cover_of_tiledL (runFirst c i arg1 harg1 arg2 harg2 arg3 harg3 arg4 harg4 arg5 harg5 arg6 harg6 arg7 harg7 arg8 harg8 hc0 x0 x1 x2 x3 x4 x5).1 S80x256.size (by sl_kernel_rfl) y

theorem coverFirstS (c : Dev nD) (i : grid0.Coords) (arg1 : Memref sig .tc .vmem S10000x256 .f32) (harg1 : arg1.IsWhole) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S80x10000 .f32) (harg6 : arg6.IsWhole) (arg7 : Memref sig .tc .vmem S400x256 .f32) (harg7 : arg7.IsWhole) (arg8 : Memref sig .tc .vmem S10000x256 .bf16) (harg8 : arg8.IsWhole) (hc0 : cond0_0 i) (x0 : Vec F S10000x256 .f32) (x1 x2 x3 x4 x5 : Vec F S80x10000 .f32) (y : S10000x256.Idx) :
    ∃ pc ∈ (runFirst c i arg1 harg1 arg2 harg2 arg3 harg3 arg4 harg4 arg5 harg5 arg6 harg6 arg7 harg7 arg8 harg8 hc0 x0 x1 x2 x3 x4 x5).2.1, y ∈ pc.1.set :=
  View.cover_of_tiledL (runFirst c i arg1 harg1 arg2 harg2 arg3 harg3 arg4 harg4 arg5 harg5 arg6 harg6 arg7 harg7 arg8 harg8 hc0 x0 x1 x2 x3 x4 x5).2.1 S10000x256.size (by sl_kernel_rfl) y

theorem coverLater6 (c : Dev nD) (i : grid0.Coords) (arg1 : Memref sig .tc .vmem S10000x256 .f32) (harg1 : arg1.IsWhole) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S80x10000 .f32) (harg6 : arg6.IsWhole) (arg7 : Memref sig .tc .vmem S400x256 .f32) (harg7 : arg7.IsWhole) (arg8 : Memref sig .tc .vmem S10000x256 .bf16) (harg8 : arg8.IsWhole) (hc0 : ¬cond0_0 i) (x0 : Vec F S10000x256 .f32) (x1 x2 x3 x4 x5 : Vec F S80x10000 .f32) (xs0 : Vec F S10000x256 .bf16) (y : S400x256.Idx) :
    ∃ pc ∈ (runLater c i arg1 harg1 arg2 harg2 arg3 harg3 arg4 harg4 arg5 harg5 arg6 harg6 arg7 harg7 arg8 harg8 hc0 x0 x1 x2 x3 x4 x5 xs0).1, y ∈ pc.1.set :=
  View.cover_of_tiledL (runLater c i arg1 harg1 arg2 harg2 arg3 harg3 arg4 harg4 arg5 harg5 arg6 harg6 arg7 harg7 arg8 harg8 hc0 x0 x1 x2 x3 x4 x5 xs0).1 S80x256.size (by sl_kernel_rfl) y

/-- What the first point leaves in the scratch buffer: the pieces it stored there, read as one array. -/
def scr (c : Dev nD) : Vec F S10000x256 .bf16 :=
  View.canon (runFirst c (grid0.coords t₀) (ms0_0 t₀) (hs0_0 t₀) (ms0_1 t₀) (hs0_1 t₀) (ms0_2 t₀) (hs0_2 t₀) (ms0_3 t₀) (hs0_3 t₀) (ms0_4 t₀) (hs0_4 t₀) (ms0_5 t₀) (hs0_5 t₀) (ms0_6 t₀) (hs0_6 t₀) scM (Memref.isWhole_whole _) ((hcond0_0 t₀).mpr rfl) (iblk m c 0 t₀) (iblk m c 1 t₀) (iblk m c 2 t₀) (iblk m c 3 t₀) (iblk m c 4 t₀) (iblk m c 5 t₀)).2.1

/-- What point `t` leaves in the output window's staging buffer: the five stored pieces, read as one block. -/
def outAt (c : Dev nD) (t : Fin cfg0.N) : Vec F S400x256 .f32 :=
  if h : t.val = 0 then
    View.canon (runFirst c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM (Memref.isWhole_whole _) ((hcond0_0 t).mpr h) (iblk m c 0 t) (iblk m c 1 t) (iblk m c 2 t) (iblk m c 3 t) (iblk m c 4 t) (iblk m c 5 t)).1
  else
    View.canon (runLater c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM (Memref.isWhole_whole _) (fun hc => h ((hcond0_0 t).mp hc)) (iblk m c 0 t) (iblk m c 1 t) (iblk m c 2 t) (iblk m c 3 t) (iblk m c 4 t) (iblk m c 5 t) (scr m c)).1

theorem outAt_first (c : Dev nD) (t : Fin cfg0.N) (h : t.val = 0) :
    outAt m c t = View.canon (runFirst c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM (Memref.isWhole_whole _) ((hcond0_0 t).mpr h) (iblk m c 0 t) (iblk m c 1 t) (iblk m c 2 t) (iblk m c 3 t) (iblk m c 4 t) (iblk m c 5 t)).1 := dif_pos h

theorem outAt_later (c : Dev nD) (t : Fin cfg0.N) (h : ¬t.val = 0) :
    outAt m c t = View.canon (runLater c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM (Memref.isWhole_whole _) (fun hc => h ((hcond0_0 t).mp hc)) (iblk m c 0 t) (iblk m c 1 t) (iblk m c 2 t) (iblk m c 3 t) (iblk m c 4 t) (iblk m c 5 t) (scr m c)).1 := dif_neg h

/-! ## The invariant between points, and the proof data -/

/-- Before the first point the scratch buffer holds anything; after it, the narrowed first operand. -/
def PhiS (c : Dev nD) : ℕ → sProp 𝕄
  | 0 => iprop(∃ d, owns (c : Thread nD τ) scM fullShare d)
  | _ + 1 => owns (c : Thread nD τ) scM fullShare (scr m c)

theorem PhiS_zero (c : Dev nD) (n : ℕ) (hz : n = 0) : PhiS m c n = iprop(∃ d, owns (c : Thread nD τ) scM fullShare d) := by
  subst hz; rfl

theorem PhiS_pos (c : Dev nD) (n : ℕ) (hz : n ≠ 0) : PhiS m c n = owns (c : Thread nD τ) scM fullShare (scr m c) := by
  cases n with
  | zero => exact absurd rfl hz
  | succ n => rfl

/-- The proof data of the launch on core `c`: the arrays as the launch finds them; after the body each input window's
    buffer still at its block, the output window's at the five products; the invariant above; the first operand's
    array held whole by its one window, the second operand's dealt in five parts among its five windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ t := PhiS m c t.val
  q w := match w with
    | ⟨0, _⟩ => fullShare
    | ⟨1, _⟩ => fullShare.left
    | ⟨2, _⟩ => fullShare.right.left
    | ⟨3, _⟩ => fullShare.right.right.left
    | ⟨4, _⟩ => fullShare.right.right.right.left
    | ⟨5, _⟩ => fullShare.right.right.right.right
    | ⟨6, _⟩ => fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = PhiS m c t.val := by
  dsimp only [dats]; simp only [Fin.coe_castSucc]

theorem Phi_succ (c : Dev nD) (t : Fin cfg0.N) : (dats m 0 c).Φ t.succ = owns (c : Thread nD τ) scM fullShare (scr m c) := by
  dsimp only [dats]; simp only [Fin.val_succ]; rfl

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outAt m c t := by dsimp only [dats]

theorem before0_0 (c : Dev nD) (t : Fin cfg0.N) (d) : (dats m 0 c).before 0 t d = iblk m c 0 t :=
  before0_of m (dats m 0 c) (A_eq m c 0) (after0_0 m c) t d
theorem before0_1 (c : Dev nD) (t : Fin cfg0.N) (d) : (dats m 0 c).before 1 t d = iblk m c 1 t :=
  before1_of m (dats m 0 c) (A_eq m c 1) (after0_1 m c) t d
theorem before0_2 (c : Dev nD) (t : Fin cfg0.N) (d) : (dats m 0 c).before 2 t d = iblk m c 2 t :=
  before2_of m (dats m 0 c) (A_eq m c 2) (after0_2 m c) t d
theorem before0_3 (c : Dev nD) (t : Fin cfg0.N) (d) : (dats m 0 c).before 3 t d = iblk m c 3 t :=
  before3_of m (dats m 0 c) (A_eq m c 3) (after0_3 m c) t d
theorem before0_4 (c : Dev nD) (t : Fin cfg0.N) (d) : (dats m 0 c).before 4 t d = iblk m c 4 t :=
  before4_of m (dats m 0 c) (A_eq m c 4) (after0_4 m c) t d
theorem before0_5 (c : Dev nD) (t : Fin cfg0.N) (d) : (dats m 0 c).before 5 t d = iblk m c 5 t :=
  before5_of m (dats m 0 c) (A_eq m c 5) (after0_5 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

theorem leaves0_0 (c : Dev nD) (t : Fin cfg0.N) :
    (dats m 0 c).leavesExact 0 t = owns (c : Thread nD τ) (ms0_0 t) fullShare ((dats m 0 c).after 0 t) := rfl
theorem leaves0_1 (c : Dev nD) (t : Fin cfg0.N) :
    (dats m 0 c).leavesExact 1 t = owns (c : Thread nD τ) (ms0_1 t) fullShare ((dats m 0 c).after 1 t) := rfl
theorem leaves0_2 (c : Dev nD) (t : Fin cfg0.N) :
    (dats m 0 c).leavesExact 2 t = owns (c : Thread nD τ) (ms0_2 t) fullShare ((dats m 0 c).after 2 t) := rfl
theorem leaves0_3 (c : Dev nD) (t : Fin cfg0.N) :
    (dats m 0 c).leavesExact 3 t = owns (c : Thread nD τ) (ms0_3 t) fullShare ((dats m 0 c).after 3 t) := rfl
theorem leaves0_4 (c : Dev nD) (t : Fin cfg0.N) :
    (dats m 0 c).leavesExact 4 t = owns (c : Thread nD τ) (ms0_4 t) fullShare ((dats m 0 c).after 4 t) := rfl
theorem leaves0_5 (c : Dev nD) (t : Fin cfg0.N) :
    (dats m 0 c).leavesExact 5 t = owns (c : Thread nD τ) (ms0_5 t) fullShare ((dats m 0 c).after 5 t) := rfl
theorem leaves0_6 (c : Dev nD) (t : Fin cfg0.N) :
    (dats m 0 c).leavesExact 6 t = owns (c : Thread nD τ) (ms0_6 t) fullShare ((dats m 0 c).after 6 t) := rfl

set_option maxHeartbeats 4000000 in
/-- The body at any point. The inputs' buffers hold their blocks. At the first point the invariant hands over the
    scratch at anything and takes it back at the narrowed first operand; at a later point it hands it over and takes
    it back unchanged. Either way the output's buffer is left at the stored pieces. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [leaves0_0, leaves0_1, leaves0_2, leaves0_3, leaves0_4, leaves0_5, leaves0_6,
    after0_0, after0_1, after0_2, after0_3, after0_4, after0_5, after0_6, Phi_succ, Phi_castSucc]
  by_cases hz : t.val = 0
  · obtain rfl : t = t₀ := Fin.ext hz
    rw [PhiS_zero m c _ rfl, outAt_first m c t₀ rfl]
    iintro ⟨HS0, Ho, ⟨%d0, H0⟩, ⟨%d1, H1⟩, ⟨%d2, H2⟩, ⟨%d3, H3⟩, ⟨%d4, H4⟩, ⟨%d5, H5⟩, ⟨%d6, H6⟩⟩
    iapply ((runFirst c (grid0.coords t₀) (ms0_0 t₀) (hs0_0 t₀) (ms0_1 t₀) (hs0_1 t₀) (ms0_2 t₀) (hs0_2 t₀) (ms0_3 t₀) (hs0_3 t₀) (ms0_4 t₀) (hs0_4 t₀) (ms0_5 t₀) (hs0_5 t₀) (ms0_6 t₀) (hs0_6 t₀) scM (Memref.isWhole_whole _) ((hcond0_0 t₀).mpr rfl) (iblk m c 0 t₀) (iblk m c 1 t₀) (iblk m c 2 t₀) (iblk m c 3 t₀) (iblk m c 4 t₀) (iblk m c 5 t₀)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    iintro ⟨H0, H1, H2, H3, H4, H5, ⟨%e6, H6⟩, ⟨%es0, HS0⟩⟩
    isplitl [HS0]
    · unfold owns; iexists _; isplitr
      swap; · iexact HS0
      ipureintro; exact View.read_writes_eq_canon _ _ _ (coverFirstS c _ _ _ _ _ _ _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_eq_canon _ _ _ (coverFirst6 c _ _ _ _ _ _ _ _ _ _ _ _ _ _ _ _ _ _ _ _ _ _ _ _)
  · rw [PhiS_pos m c _ hz, outAt_later m c t hz]
    iintro ⟨HS0, Ho, ⟨%d0, H0⟩, ⟨%d1, H1⟩, ⟨%d2, H2⟩, ⟨%d3, H3⟩, ⟨%d4, H4⟩, ⟨%d5, H5⟩, ⟨%d6, H6⟩⟩
    iapply ((runLater c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM (Memref.isWhole_whole _) (fun hc => hz ((hcond0_0 t).mp hc)) (iblk m c 0 t) (iblk m c 1 t) (iblk m c 2 t) (iblk m c 3 t) (iblk m c 4 t) (iblk m c 5 t) (scr m c)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    iintro ⟨H0, H1, H2, H3, H4, H5, ⟨%e6, H6⟩, HS0⟩
    isplitl [HS0]; · iexact HS0
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_eq_canon _ _ _ (coverLater6 c _ _ _ _ _ _ _ _ _ _ _ _ _ _ _ _ _ _ _ _ _ _ _ _ _)

/-- The launch theorem's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KLaunch.lean ====
/-
  The launch. The second operand's buffer, held whole when the launch begins, is dealt among the five input windows
  that read it: one half, a quarter, an eighth, and the two sixteenths. With that, the body obligation and the
  invariant's two ends, the launch theorem for windows sharing an array gives the run: every execution of the
  program ends, nothing faults, and each array of the pipeline ends at what the write-backs leave in it — the two
  argument arrays unchanged, the result array at the output window's written-back blocks.
-/
import proofs.«115504_g532575945055_cont_9to1_m_783_14_alg».proof.Proof.KFrame

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The distinct buffers behind the seven windows' arrays, each whole, make the pipeline's seven arrays at the shares the
    proof data name: the first operand's and the result's whole, the second operand's dealt in five parts. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  have hA : (dats m 0 c).arrays ((dats m 0 c).arrAt · 0)
      = bigSep Finset.univ fun w : Fin 7 => (((c : Thread nD τ).loc (Pipeline.arrRef spec0 w)) ↦{(dats m 0 c).share w} V m c (Pipeline.arrRef spec0 w) : sProp 𝕄) := by
    unfold Dat.arrays
    exact bigSep_congr fun w _ => by rw [(arr_whole0 w).set_eq_univ]; rfl
  rw [hA, bigSep_W0]
  have hB : (Pipeline.arrBufs (Ix := Unit) (Name := ℕ) (U := UR sig nD τ) (Lvl := ℕ) spec0 c (V m c) : sProp 𝕄)
      = iprop((((c : Thread nD τ).loc main_arg0) ↦{fullShare} V m c main_arg0) ∗ (((c : Thread nD τ).loc main_arg1) ↦{fullShare} V m c main_arg1)
          ∗ (((c : Thread nD τ).loc main_v0) ↦{fullShare} V m c main_v0)) :=
    bigSep_eq_bigSepL_of_eq [main_arg0, main_arg1, main_v0] (by decide) (by decide) _
  rw [hB]
  rw [show (dats m 0 c).share 0 = fullShare from rfl, show (dats m 0 c).share 1 = fullShare.left from rfl,
    show (dats m 0 c).share 2 = fullShare.right.left from rfl, show (dats m 0 c).share 3 = fullShare.right.right.left from rfl,
    show (dats m 0 c).share 4 = fullShare.right.right.right.left from rfl,
    show (dats m 0 c).share 5 = fullShare.right.right.right.right from rfl, show (dats m 0 c).share 6 = fullShare from rfl]
  iintro ⟨H0, H1, H2⟩
  ihave H1 := (pointsTo_share (PosShare.mem_left_op_right fullShare)).1 $$ H1
  icases H1 with ⟨Ha, H1⟩
  ihave H1 := (pointsTo_share (PosShare.mem_left_op_right fullShare.right)).1 $$ H1
  icases H1 with ⟨Hb, H1⟩
  ihave H1 := (pointsTo_share (PosShare.mem_left_op_right fullShare.right.right)).1 $$ H1
  icases H1 with ⟨Hc, H1⟩
  ihave H1 := (pointsTo_share (PosShare.mem_left_op_right fullShare.right.right.right)).1 $$ H1
  icases H1 with ⟨Hd, He⟩
  isplitl [H0]; · iexact H0
  isplitl [Ha]; · iexact Ha
  isplitl [Hb]; · iexact Hb
  isplitl [Hc]; · iexact Hc
  isplitl [Hd]; · iexact Hd
  isplitl [He]; · iexact He
  iexact H2

/-- Before the first point the scoped buffers the pipeline does not stage — the scratch alone — are the invariant. -/
theorem hin (c : Dev nD) :
    iprop((BI.emp : sProp 𝕄) ∗ Pipeline.scopedRest (Ix := Unit) (Name := ℕ) (U := UR sig nD τ) (Lvl := ℕ) (Val := Elt F) spec0 c) ⊢ (dats m 0 c).Φ 0 := by
  rw [show (dats m 0 c).Φ 0 = PhiS m c 0 from rfl, PhiS_zero m c 0 rfl, scopedRest_owns]
  iintro ⟨-, H⟩; iexact H

/-- After the last point the invariant gives the scratch back, its contents forgotten. -/
theorem hout (c : Dev nD) :
    (dats m 0 c).Φ (Fin.last cfg0.N) ⊢ iprop((BI.emp : sProp 𝕄) ∗ Pipeline.scopedRest (Ix := Unit) (Name := ℕ) (U := UR sig nD τ) (Lvl := ℕ) (Val := Elt F) spec0 c) := by
  rw [show (dats m 0 c).Φ (Fin.last cfg0.N) = PhiS m c cfg0.N from rfl,
    PhiS_pos m c _ (by rw [show cfg0.N = 25 from N_0]; decide), scopedRest_owns]
  iintro H
  isplitr; · iempintro
  iexists _; iexact H

set_option backward.isDefEq.respectTransparency.types false in
/-- From any memory with zero counters, every weakly fair execution of the program ends, and in its final state every
    array of the pipeline holds what the write-backs leave in it. -/
theorem run_main : θ_run defs (onTc (τ := τ) (main (F := F))) ⟨m, fun _ => 0, ρ⟩
    (fun r => ∀ c : Dev nD, ∀ w : Fin cfg0.W,
      r.2.mem (((cfgs 0).spec w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := Pipeline.hmain_region cfgs 0 defs₀ Variants.none m main (fun _ => rfl))
    (hsplit := hsplit m)
    (X := fun _ => BI.emp) (Y := fun _ => BI.emp) (Z := fun _ => BI.emp)
    (hX := fun c => by rw [unscopedRest0_eq]; iintro -; isplitl <;> iempintro)
    (hin := hin m) (hout := hout m)
    (QY := fun _ _ => True)
    (hY := fun c s' => by iintro ⟨-, -, HSI⟩; imodintro; isplitr; · ipureintro; trivial
                          iexact HSI)
    (hQ := fun s h c w => (h c).1 w)

/-- The run with the three arrays of the claim named: the result array at the output window's array after all
    write-backs, the two arguments as they were. -/
theorem run_named : θ_run defs (onTc (τ := τ) (main (F := F))) ⟨m, fun _ => 0, ρ⟩ (fun r => ∀ c : Dev nD,
      r.2.mem ((c.tc : Thread nD τ).loc main_v0) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨h c 6,
      (h c 0).trans (((dats m 0 c).arrAt_in 0 rfl _).trans (A_eq m c 0)),
      (h c 1).trans (((dats m 0 c).arrAt_in 1 rfl _).trans (A_eq m c 1))⟩) (run_main m ρ)

/-- The frame: the program runs to its end and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_named m ρ)

end Cert.Kernel.Hand

end
-- ==== Proof.KISetup.lean ====
/-
  The pipeline of the one kernel launch, prepared for its run: the contents the launch finds in each buffer,
  each window's block of its array at a grid point, the fact that an input window's staging buffer holds that
  block whenever the body is entered, the one condition the body branches on (the first grid point), and the
  names of the staging buffers the body is called with. Stated for any float instance.
-/
import proofs.«115504_g532575945055_cont_9to1_m_783_14_alg».proof.Proof.Gen.KernelIdeal.Launch
import proofs.«115504_g532575945055_cont_9to1_m_783_14_alg».proof.Proof.Gen.KernelIdeal.Skeleton
import proofs.«115504_g532575945055_cont_9to1_m_783_14_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers as the launch finds them, and the windows' blocks -/

/-- There is no host operation before the launch: every buffer holds its initial contents. -/
abbrev V (c : Dev nD) (b : Ref sig .tc) : Buf (Elt F) ((c : Thread nD τ).loc b) := m ((c : Thread nD τ).loc b)

/-- Window `w`'s block at grid point `t`, read off the window's array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds the window's block of the argument array at every point,
    whether the pipeline fetched it there or kept it from the point before, once the proof data say the body
    leaves that block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds the window's block of the argument array at every point,
    whether the pipeline fetched it there or kept it from the point before, once the proof data say the body
    leaves that block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds the window's block of the argument array at every point,
    whether the pipeline fetched it there or kept it from the point before, once the proof data say the body
    leaves that block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds the window's block of the argument array at every point,
    whether the pipeline fetched it there or kept it from the point before, once the proof data say the body
    leaves that block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds the window's block of the argument array at every point,
    whether the pipeline fetched it there or kept it from the point before, once the proof data say the body
    leaves that block in place. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds the window's block of the argument array at every point,
    whether the pipeline fetched it there or kept it from the point before, once the proof data say the body
    leaves that block in place. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's one branch: the first grid point -/

/-- The condition of the body's conditional, from the grid coordinate. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val = 0 :=
  (by decide +kernel : ∀ t : Fin grid0.N, cond0_0 (grid0.coords t) ↔ t.val = 0)

/-! ## The staging buffers the body is called with -/

abbrev ms0_0 (t : Fin cfg0.N) := win0_0.stage (cfg0.slots t 0)
abbrev hs0_0 (t : Fin cfg0.N) : (ms0_0 t).IsWhole := hstage0_0 ((cfg0.slots t 0).cast nbuf0_0)
abbrev ms0_1 (t : Fin cfg0.N) := win0_1.stage (cfg0.slots t 1)
abbrev hs0_1 (t : Fin cfg0.N) : (ms0_1 t).IsWhole := hstage0_1 ((cfg0.slots t 1).cast nbuf0_1)
abbrev ms0_2 (t : Fin cfg0.N) := win0_2.stage (cfg0.slots t 2)
abbrev hs0_2 (t : Fin cfg0.N) : (ms0_2 t).IsWhole := hstage0_2 ((cfg0.slots t 2).cast nbuf0_2)
abbrev ms0_3 (t : Fin cfg0.N) := win0_3.stage (cfg0.slots t 3)
abbrev hs0_3 (t : Fin cfg0.N) : (ms0_3 t).IsWhole := hstage0_3 ((cfg0.slots t 3).cast nbuf0_3)
abbrev ms0_4 (t : Fin cfg0.N) := win0_4.stage (cfg0.slots t 4)
abbrev hs0_4 (t : Fin cfg0.N) : (ms0_4 t).IsWhole := hstage0_4 ((cfg0.slots t 4).cast nbuf0_4)
abbrev ms0_5 (t : Fin cfg0.N) := win0_5.stage (cfg0.slots t 5)
abbrev hs0_5 (t : Fin cfg0.N) : (ms0_5 t).IsWhole := hstage0_5 ((cfg0.slots t 5).cast nbuf0_5)
abbrev ms0_6 (t : Fin cfg0.N) := win0_6.stage (cfg0.slots t 6)
abbrev hs0_6 (t : Fin cfg0.N) : (ms0_6 t).IsWhole := hstage0_6 ((cfg0.slots t 6).cast nbuf0_6)
/-- The scratch buffer, whole: the narrowed copy of the first operand the body keeps between grid points. -/
abbrev scM : Memref sig .tc .vmem S10000x256 .bf16 := Memref.whole cc0_scratch0
/-- The scratch buffer as a view: what it holds is stated through it. -/
abbrev VS : View sig .tc .vmem S10000x256 .bf16 := (scM : Memref sig .tc .vmem S10000x256 .bf16).view
/-- One staging buffer of the output window, through which the output block's contents are stated. -/
abbrev VO : View sig .tc .vmem S400x256 .f32 := (Memref.whole cc0_stg6_0 : Memref sig .tc .vmem S400x256 .f32).view

/-- The core's scoped buffers that the pipeline does not stage are the scratch buffer alone, held whole at some contents. -/
theorem scopedRest_owns (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; try rfl

end Cert.KernelIdeal.Hand

end
-- ==== Proof.KIRunFirst.lean ====
/-
  The kernel body at the FIRST grid point, run once on any whole staging buffers: the conditional is taken, so
  the body narrows the whole first operand into the scratch buffer, reads it back, and stores the five
  products into the five row bands of the output block. The pieces the output block and the scratch buffer
  end with are found by running the body.
-/
import proofs.«115504_g532575945055_cont_9to1_m_783_14_alg».proof.Proof.KISetup

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At a point where the conditional is taken: from the inputs' staging buffers at their contents, the output's and the
    scratch at anything, the body runs to its end, the inputs as they were, the output's buffer and the scratch with the
    found pieces written. -/
noncomputable def runFirst (c : Dev nD) (i : grid0.Coords) (arg1 : Memref sig .tc .vmem S10000x256 .f32) (harg1 : arg1.IsWhole) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S80x10000 .f32) (harg6 : arg6.IsWhole) (arg7 : Memref sig .tc .vmem S400x256 .f32) (harg7 : arg7.IsWhole) (arg8 : Memref sig .tc .vmem S10000x256 .bf16) (harg8 : arg8.IsWhole) (hc0 : cond0_0 i)
    (x0 : Vec F S10000x256 .f32) (x1 x2 x3 x4 x5 : Vec F S80x10000 .f32) :
    Σ' (L6 : List (View.Piece (Elt F) S400x256 .f32)), { LS0 : List (View.Piece (Elt F) S10000x256 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0)) -∗ K ⟨⟩))
          ⊢ wp frame (wpE (defs₀ (F := F)) Variants.none c none) E (cc0__mm_kernel i arg1 harg1 arg2 harg2 arg3 harg3 arg4 harg4 arg5 harg5 arg6 harg6 arg7 harg7 arg8 harg8) K } := by
  refine ⟨?_, ?_, fun E K => ?run⟩
  case run =>
    simp only [cc0__mm_kernel_eq_skeleton]; unfold cc0__mm_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    sl_exec (disch := exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; iexact HS0

end Cert.KernelIdeal.Hand

end
-- ==== Proof.KIRunLater.lean ====
/-
  The kernel body at every LATER grid point, run once on any whole staging buffers: the conditional is not
  taken, so the scratch buffer is only read — it still holds what the first point stored — and the five
  products are stored into the five row bands of the output block.
-/
import proofs.«115504_g532575945055_cont_9to1_m_783_14_alg».proof.Proof.KIRunFirst

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At a point where the conditional is not taken: from the inputs' staging buffers and the scratch at their contents,
    the output's at anything, the body runs to its end, the inputs and the scratch as they were, the output's buffer
    with the found pieces written. -/
noncomputable def runLater (c : Dev nD) (i : grid0.Coords) (arg1 : Memref sig .tc .vmem S10000x256 .f32) (harg1 : arg1.IsWhole) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S80x10000 .f32) (harg6 : arg6.IsWhole) (arg7 : Memref sig .tc .vmem S400x256 .f32) (harg7 : arg7.IsWhole) (arg8 : Memref sig .tc .vmem S10000x256 .bf16) (harg8 : arg8.IsWhole) (hc0 : ¬cond0_0 i)
    (x0 : Vec F S10000x256 .f32) (x1 x2 x3 x4 x5 : Vec F S80x10000 .f32) (xs0 : Vec F S10000x256 .bf16) :
    { L6 : List (View.Piece (Elt F) S400x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ owns (c : Thread nD τ) arg8 fullShare xs0) -∗ K ⟨⟩))
          ⊢ wp frame (wpE (defs₀ (F := F)) Variants.none c none) E (cc0__mm_kernel i arg1 harg1 arg2 harg2 arg3 harg3 arg4 harg4 arg5 harg5 arg6 harg6 arg7 harg7 arg8 harg8) K } := by
  refine ⟨?_, fun E K => ?run⟩
  case run =>
    simp only [cc0__mm_kernel_eq_skeleton]; unfold cc0__mm_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg8.eq_unread hfs0
    sl_exec (disch := exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; isplitr; · ipureintro; exact harg8.read_unread _
    iexact HS0

end Cert.KernelIdeal.Hand

end
-- ==== Proof.KIFrame.lean ====
/-
  The run of the whole launch. After each grid point the output window's staging buffer holds the five products the
  body stored there, and from the first point on the scratch buffer holds the narrowed first operand; between
  points that is the invariant. The second operand is handed to five input windows at once, so its buffer's
  full share is dealt among them in five parts. From these the launch theorem gives: every execution ends, with
  every array of the pipeline at what the write-backs leave in it.
-/
import proofs.«115504_g532575945055_cont_9to1_m_783_14_alg».proof.Proof.KIRunLater

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body leaves -/

/-- The grid's first point. -/
abbrev t₀ : Fin cfg0.N := ⟨0, Nat.lt_of_lt_of_eq (by decide : 0 < 25) N_0.symm⟩

theorem coverFirst6 (c : Dev nD) (i : grid0.Coords) (arg1 : Memref sig .tc .vmem S10000x256 .f32) (harg1 : arg1.IsWhole) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S80x10000 .f32) (harg6 : arg6.IsWhole) (arg7 : Memref sig .tc .vmem S400x256 .f32) (harg7 : arg7.IsWhole) (arg8 : Memref sig .tc .vmem S10000x256 .bf16) (harg8 : arg8.IsWhole) (hc0 : cond0_0 i) (x0 : Vec F S10000x256 .f32) (x1 x2 x3 x4 x5 : Vec F S80x10000 .f32) (y : S400x256.Idx) :
    ∃ pc ∈ (runFirst c i arg1 harg1 arg2 harg2 arg3 harg3 arg4 harg4 arg5 harg5 arg6 harg6 arg7 harg7 arg8 harg8 hc0 x0 x1 x2 x3 x4 x5).1, y ∈ pc.1.set :=
  View.cover_of_tiledL (runFirst c i arg1 harg1 arg2 harg2 arg3 harg3 arg4 harg4 arg5 harg5 arg6 harg6 arg7 harg7 arg8 harg8 hc0 x0 x1 x2 x3 x4 x5).1 S80x256.size (by sl_kernel_rfl) y

theorem coverFirstS (c : Dev nD) (i : grid0.Coords) (arg1 : Memref sig .tc .vmem S10000x256 .f32) (harg1 : arg1.IsWhole) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S80x10000 .f32) (harg6 : arg6.IsWhole) (arg7 : Memref sig .tc .vmem S400x256 .f32) (harg7 : arg7.IsWhole) (arg8 : Memref sig .tc .vmem S10000x256 .bf16) (harg8 : arg8.IsWhole) (hc0 : cond0_0 i) (x0 : Vec F S10000x256 .f32) (x1 x2 x3 x4 x5 : Vec F S80x10000 .f32) (y : S10000x256.Idx) :
    ∃ pc ∈ (runFirst c i arg1 harg1 arg2 harg2 arg3 harg3 arg4 harg4 arg5 harg5 arg6 harg6 arg7 harg7 arg8 harg8 hc0 x0 x1 x2 x3 x4 x5).2.1, y ∈ pc.1.set :=
  View.cover_of_tiledL (runFirst c i arg1 harg1 arg2 harg2 arg3 harg3 arg4 harg4 arg5 harg5 arg6 harg6 arg7 harg7 arg8 harg8 hc0 x0 x1 x2 x3 x4 x5).2.1 S10000x256.size (by sl_kernel_rfl) y

theorem coverLater6 (c : Dev nD) (i : grid0.Coords) (arg1 : Memref sig .tc .vmem S10000x256 .f32) (harg1 : arg1.IsWhole) (arg2 : Memref sig .tc .vmem S80x10000 .f32) (harg2 : arg2.IsWhole) (arg3 : Memref sig .tc .vmem S80x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S80x10000 .f32) (harg6 : arg6.IsWhole) (arg7 : Memref sig .tc .vmem S400x256 .f32) (harg7 : arg7.IsWhole) (arg8 : Memref sig .tc .vmem S10000x256 .bf16) (harg8 : arg8.IsWhole) (hc0 : ¬cond0_0 i) (x0 : Vec F S10000x256 .f32) (x1 x2 x3 x4 x5 : Vec F S80x10000 .f32) (xs0 : Vec F S10000x256 .bf16) (y : S400x256.Idx) :
    ∃ pc ∈ (runLater c i arg1 harg1 arg2 harg2 arg3 harg3 arg4 harg4 arg5 harg5 arg6 harg6 arg7 harg7 arg8 harg8 hc0 x0 x1 x2 x3 x4 x5 xs0).1, y ∈ pc.1.set :=
  View.cover_of_tiledL (runLater c i arg1 harg1 arg2 harg2 arg3 harg3 arg4 harg4 arg5 harg5 arg6 harg6 arg7 harg7 arg8 harg8 hc0 x0 x1 x2 x3 x4 x5 xs0).1 S80x256.size (by sl_kernel_rfl) y

/-- What the first point leaves in the scratch buffer: the pieces it stored there, read as one array. -/
def scr (c : Dev nD) : Vec F S10000x256 .bf16 :=
  View.canon (runFirst c (grid0.coords t₀) (ms0_0 t₀) (hs0_0 t₀) (ms0_1 t₀) (hs0_1 t₀) (ms0_2 t₀) (hs0_2 t₀) (ms0_3 t₀) (hs0_3 t₀) (ms0_4 t₀) (hs0_4 t₀) (ms0_5 t₀) (hs0_5 t₀) (ms0_6 t₀) (hs0_6 t₀) scM (Memref.isWhole_whole _) ((hcond0_0 t₀).mpr rfl) (iblk m c 0 t₀) (iblk m c 1 t₀) (iblk m c 2 t₀) (iblk m c 3 t₀) (iblk m c 4 t₀) (iblk m c 5 t₀)).2.1

/-- What point `t` leaves in the output window's staging buffer: the five stored pieces, read as one block. -/
def outAt (c : Dev nD) (t : Fin cfg0.N) : Vec F S400x256 .f32 :=
  if h : t.val = 0 then
    View.canon (runFirst c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM (Memref.isWhole_whole _) ((hcond0_0 t).mpr h) (iblk m c 0 t) (iblk m c 1 t) (iblk m c 2 t) (iblk m c 3 t) (iblk m c 4 t) (iblk m c 5 t)).1
  else
    View.canon (runLater c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM (Memref.isWhole_whole _) (fun hc => h ((hcond0_0 t).mp hc)) (iblk m c 0 t) (iblk m c 1 t) (iblk m c 2 t) (iblk m c 3 t) (iblk m c 4 t) (iblk m c 5 t) (scr m c)).1

theorem outAt_first (c : Dev nD) (t : Fin cfg0.N) (h : t.val = 0) :
    outAt m c t = View.canon (runFirst c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM (Memref.isWhole_whole _) ((hcond0_0 t).mpr h) (iblk m c 0 t) (iblk m c 1 t) (iblk m c 2 t) (iblk m c 3 t) (iblk m c 4 t) (iblk m c 5 t)).1 := dif_pos h

theorem outAt_later (c : Dev nD) (t : Fin cfg0.N) (h : ¬t.val = 0) :
    outAt m c t = View.canon (runLater c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM (Memref.isWhole_whole _) (fun hc => h ((hcond0_0 t).mp hc)) (iblk m c 0 t) (iblk m c 1 t) (iblk m c 2 t) (iblk m c 3 t) (iblk m c 4 t) (iblk m c 5 t) (scr m c)).1 := dif_neg h

/-! ## The invariant between points, and the proof data -/

/-- Before the first point the scratch buffer holds anything; after it, the narrowed first operand. -/
def PhiS (c : Dev nD) : ℕ → sProp 𝕄
  | 0 => iprop(∃ d, owns (c : Thread nD τ) scM fullShare d)
  | _ + 1 => owns (c : Thread nD τ) scM fullShare (scr m c)

theorem PhiS_zero (c : Dev nD) (n : ℕ) (hz : n = 0) : PhiS m c n = iprop(∃ d, owns (c : Thread nD τ) scM fullShare d) := by
  subst hz; rfl

theorem PhiS_pos (c : Dev nD) (n : ℕ) (hz : n ≠ 0) : PhiS m c n = owns (c : Thread nD τ) scM fullShare (scr m c) := by
  cases n with
  | zero => exact absurd rfl hz
  | succ n => rfl

/-- The proof data of the launch on core `c`: the arrays as the launch finds them; after the body each input window's
    buffer still at its block, the output window's at the five products; the invariant above; the first operand's
    array held whole by its one window, the second operand's dealt in five parts among its five windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ t := PhiS m c t.val
  q w := match w with
    | ⟨0, _⟩ => fullShare
    | ⟨1, _⟩ => fullShare.left
    | ⟨2, _⟩ => fullShare.right.left
    | ⟨3, _⟩ => fullShare.right.right.left
    | ⟨4, _⟩ => fullShare.right.right.right.left
    | ⟨5, _⟩ => fullShare.right.right.right.right
    | ⟨6, _⟩ => fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = PhiS m c t.val := by
  dsimp only [dats]; simp only [Fin.coe_castSucc]

theorem Phi_succ (c : Dev nD) (t : Fin cfg0.N) : (dats m 0 c).Φ t.succ = owns (c : Thread nD τ) scM fullShare (scr m c) := by
  dsimp only [dats]; simp only [Fin.val_succ]; rfl

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outAt m c t := by dsimp only [dats]

theorem before0_0 (c : Dev nD) (t : Fin cfg0.N) (d) : (dats m 0 c).before 0 t d = iblk m c 0 t :=
  before0_of m (dats m 0 c) (A_eq m c 0) (after0_0 m c) t d
theorem before0_1 (c : Dev nD) (t : Fin cfg0.N) (d) : (dats m 0 c).before 1 t d = iblk m c 1 t :=
  before1_of m (dats m 0 c) (A_eq m c 1) (after0_1 m c) t d
theorem before0_2 (c : Dev nD) (t : Fin cfg0.N) (d) : (dats m 0 c).before 2 t d = iblk m c 2 t :=
  before2_of m (dats m 0 c) (A_eq m c 2) (after0_2 m c) t d
theorem before0_3 (c : Dev nD) (t : Fin cfg0.N) (d) : (dats m 0 c).before 3 t d = iblk m c 3 t :=
  before3_of m (dats m 0 c) (A_eq m c 3) (after0_3 m c) t d
theorem before0_4 (c : Dev nD) (t : Fin cfg0.N) (d) : (dats m 0 c).before 4 t d = iblk m c 4 t :=
  before4_of m (dats m 0 c) (A_eq m c 4) (after0_4 m c) t d
theorem before0_5 (c : Dev nD) (t : Fin cfg0.N) (d) : (dats m 0 c).before 5 t d = iblk m c 5 t :=
  before5_of m (dats m 0 c) (A_eq m c 5) (after0_5 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

theorem leaves0_0 (c : Dev nD) (t : Fin cfg0.N) :
    (dats m 0 c).leavesExact 0 t = owns (c : Thread nD τ) (ms0_0 t) fullShare ((dats m 0 c).after 0 t) := rfl
theorem leaves0_1 (c : Dev nD) (t : Fin cfg0.N) :
    (dats m 0 c).leavesExact 1 t = owns (c : Thread nD τ) (ms0_1 t) fullShare ((dats m 0 c).after 1 t) := rfl
theorem leaves0_2 (c : Dev nD) (t : Fin cfg0.N) :
    (dats m 0 c).leavesExact 2 t = owns (c : Thread nD τ) (ms0_2 t) fullShare ((dats m 0 c).after 2 t) := rfl
theorem leaves0_3 (c : Dev nD) (t : Fin cfg0.N) :
    (dats m 0 c).leavesExact 3 t = owns (c : Thread nD τ) (ms0_3 t) fullShare ((dats m 0 c).after 3 t) := rfl
theorem leaves0_4 (c : Dev nD) (t : Fin cfg0.N) :
    (dats m 0 c).leavesExact 4 t = owns (c : Thread nD τ) (ms0_4 t) fullShare ((dats m 0 c).after 4 t) := rfl
theorem leaves0_5 (c : Dev nD) (t : Fin cfg0.N) :
    (dats m 0 c).leavesExact 5 t = owns (c : Thread nD τ) (ms0_5 t) fullShare ((dats m 0 c).after 5 t) := rfl
theorem leaves0_6 (c : Dev nD) (t : Fin cfg0.N) :
    (dats m 0 c).leavesExact 6 t = owns (c : Thread nD τ) (ms0_6 t) fullShare ((dats m 0 c).after 6 t) := rfl

set_option maxHeartbeats 4000000 in
/-- The body at any point. The inputs' buffers hold their blocks. At the first point the invariant hands over the
    scratch at anything and takes it back at the narrowed first operand; at a later point it hands it over and takes
    it back unchanged. Either way the output's buffer is left at the stored pieces. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [leaves0_0, leaves0_1, leaves0_2, leaves0_3, leaves0_4, leaves0_5, leaves0_6,
    after0_0, after0_1, after0_2, after0_3, after0_4, after0_5, after0_6, Phi_succ, Phi_castSucc]
  by_cases hz : t.val = 0
  · obtain rfl : t = t₀ := Fin.ext hz
    rw [PhiS_zero m c _ rfl, outAt_first m c t₀ rfl]
    iintro ⟨HS0, Ho, ⟨%d0, H0⟩, ⟨%d1, H1⟩, ⟨%d2, H2⟩, ⟨%d3, H3⟩, ⟨%d4, H4⟩, ⟨%d5, H5⟩, ⟨%d6, H6⟩⟩
    iapply ((runFirst c (grid0.coords t₀) (ms0_0 t₀) (hs0_0 t₀) (ms0_1 t₀) (hs0_1 t₀) (ms0_2 t₀) (hs0_2 t₀) (ms0_3 t₀) (hs0_3 t₀) (ms0_4 t₀) (hs0_4 t₀) (ms0_5 t₀) (hs0_5 t₀) (ms0_6 t₀) (hs0_6 t₀) scM (Memref.isWhole_whole _) ((hcond0_0 t₀).mpr rfl) (iblk m c 0 t₀) (iblk m c 1 t₀) (iblk m c 2 t₀) (iblk m c 3 t₀) (iblk m c 4 t₀) (iblk m c 5 t₀)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    iintro ⟨H0, H1, H2, H3, H4, H5, ⟨%e6, H6⟩, ⟨%es0, HS0⟩⟩
    isplitl [HS0]
    · unfold owns; iexists _; isplitr
      swap; · iexact HS0
      ipureintro; exact View.read_writes_eq_canon _ _ _ (coverFirstS c _ _ _ _ _ _ _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_eq_canon _ _ _ (coverFirst6 c _ _ _ _ _ _ _ _ _ _ _ _ _ _ _ _ _ _ _ _ _ _ _ _)
  · rw [PhiS_pos m c _ hz, outAt_later m c t hz]
    iintro ⟨HS0, Ho, ⟨%d0, H0⟩, ⟨%d1, H1⟩, ⟨%d2, H2⟩, ⟨%d3, H3⟩, ⟨%d4, H4⟩, ⟨%d5, H5⟩, ⟨%d6, H6⟩⟩
    iapply ((runLater c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM (Memref.isWhole_whole _) (fun hc => hz ((hcond0_0 t).mp hc)) (iblk m c 0 t) (iblk m c 1 t) (iblk m c 2 t) (iblk m c 3 t) (iblk m c 4 t) (iblk m c 5 t) (scr m c)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    iintro ⟨H0, H1, H2, H3, H4, H5, ⟨%e6, H6⟩, HS0⟩
    isplitl [HS0]; · iexact HS0
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_eq_canon _ _ _ (coverLater6 c _ _ _ _ _ _ _ _ _ _ _ _ _ _ _ _ _ _ _ _ _ _ _ _ _)

/-- The launch theorem's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KILaunch.lean ====
/-
  The launch. The second operand's buffer, held whole when the launch begins, is dealt among the five input windows
  that read it: one half, a quarter, an eighth, and the two sixteenths. With that, the body obligation and the
  invariant's two ends, the launch theorem for windows sharing an array gives the run: every execution of the
  program ends, nothing faults, and each array of the pipeline ends at what the write-backs leave in it — the two
  argument arrays unchanged, the result array at the output window's written-back blocks.
-/
import proofs.«115504_g532575945055_cont_9to1_m_783_14_alg».proof.Proof.KIFrame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The distinct buffers behind the seven windows' arrays, each whole, make the pipeline's seven arrays at the shares the
    proof data name: the first operand's and the result's whole, the second operand's dealt in five parts. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  have hA : (dats m 0 c).arrays ((dats m 0 c).arrAt · 0)
      = bigSep Finset.univ fun w : Fin 7 => (((c : Thread nD τ).loc (Pipeline.arrRef spec0 w)) ↦{(dats m 0 c).share w} V m c (Pipeline.arrRef spec0 w) : sProp 𝕄) := by
    unfold Dat.arrays
    exact bigSep_congr fun w _ => by rw [(arr_whole0 w).set_eq_univ]; rfl
  rw [hA, bigSep_W0]
  have hB : (Pipeline.arrBufs (Ix := Unit) (Name := ℕ) (U := UR sig nD τ) (Lvl := ℕ) spec0 c (V m c) : sProp 𝕄)
      = iprop((((c : Thread nD τ).loc main_arg0) ↦{fullShare} V m c main_arg0) ∗ (((c : Thread nD τ).loc main_arg1) ↦{fullShare} V m c main_arg1)
          ∗ (((c : Thread nD τ).loc main_v0) ↦{fullShare} V m c main_v0)) :=
    bigSep_eq_bigSepL_of_eq [main_arg0, main_arg1, main_v0] (by decide) (by decide) _
  rw [hB]
  rw [show (dats m 0 c).share 0 = fullShare from rfl, show (dats m 0 c).share 1 = fullShare.left from rfl,
    show (dats m 0 c).share 2 = fullShare.right.left from rfl, show (dats m 0 c).share 3 = fullShare.right.right.left from rfl,
    show (dats m 0 c).share 4 = fullShare.right.right.right.left from rfl,
    show (dats m 0 c).share 5 = fullShare.right.right.right.right from rfl, show (dats m 0 c).share 6 = fullShare from rfl]
  iintro ⟨H0, H1, H2⟩
  ihave H1 := (pointsTo_share (PosShare.mem_left_op_right fullShare)).1 $$ H1
  icases H1 with ⟨Ha, H1⟩
  ihave H1 := (pointsTo_share (PosShare.mem_left_op_right fullShare.right)).1 $$ H1
  icases H1 with ⟨Hb, H1⟩
  ihave H1 := (pointsTo_share (PosShare.mem_left_op_right fullShare.right.right)).1 $$ H1
  icases H1 with ⟨Hc, H1⟩
  ihave H1 := (pointsTo_share (PosShare.mem_left_op_right fullShare.right.right.right)).1 $$ H1
  icases H1 with ⟨Hd, He⟩
  isplitl [H0]; · iexact H0
  isplitl [Ha]; · iexact Ha
  isplitl [Hb]; · iexact Hb
  isplitl [Hc]; · iexact Hc
  isplitl [Hd]; · iexact Hd
  isplitl [He]; · iexact He
  iexact H2

/-- Before the first point the scoped buffers the pipeline does not stage — the scratch alone — are the invariant. -/
theorem hin (c : Dev nD) :
    iprop((BI.emp : sProp 𝕄) ∗ Pipeline.scopedRest (Ix := Unit) (Name := ℕ) (U := UR sig nD τ) (Lvl := ℕ) (Val := Elt F) spec0 c) ⊢ (dats m 0 c).Φ 0 := by
  rw [show (dats m 0 c).Φ 0 = PhiS m c 0 from rfl, PhiS_zero m c 0 rfl, scopedRest_owns]
  iintro ⟨-, H⟩; iexact H

/-- After the last point the invariant gives the scratch back, its contents forgotten. -/
theorem hout (c : Dev nD) :
    (dats m 0 c).Φ (Fin.last cfg0.N) ⊢ iprop((BI.emp : sProp 𝕄) ∗ Pipeline.scopedRest (Ix := Unit) (Name := ℕ) (U := UR sig nD τ) (Lvl := ℕ) (Val := Elt F) spec0 c) := by
  rw [show (dats m 0 c).Φ (Fin.last cfg0.N) = PhiS m c cfg0.N from rfl,
    PhiS_pos m c _ (by rw [show cfg0.N = 25 from N_0]; decide), scopedRest_owns]
  iintro H
  isplitr; · iempintro
  iexists _; iexact H

set_option backward.isDefEq.respectTransparency.types false in
/-- From any memory with zero counters, every weakly fair execution of the program ends, and in its final state every
    array of the pipeline holds what the write-backs leave in it. -/
theorem run_main : θ_run defs (onTc (τ := τ) (main (F := F))) ⟨m, fun _ => 0, ρ⟩
    (fun r => ∀ c : Dev nD, ∀ w : Fin cfg0.W,
      r.2.mem (((cfgs 0).spec w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := Pipeline.hmain_region cfgs 0 defs₀ Variants.none m main (fun _ => rfl))
    (hsplit := hsplit m)
    (X := fun _ => BI.emp) (Y := fun _ => BI.emp) (Z := fun _ => BI.emp)
    (hX := fun c => by rw [unscopedRest0_eq]; iintro -; isplitl <;> iempintro)
    (hin := hin m) (hout := hout m)
    (QY := fun _ _ => True)
    (hY := fun c s' => by iintro ⟨-, -, HSI⟩; imodintro; isplitr; · ipureintro; trivial
                          iexact HSI)
    (hQ := fun s h c w => (h c).1 w)

/-- The run with the three arrays of the claim named: the result array at the output window's array after all
    write-backs, the two arguments as they were. -/
theorem run_named : θ_run defs (onTc (τ := τ) (main (F := F))) ⟨m, fun _ => 0, ρ⟩ (fun r => ∀ c : Dev nD,
      r.2.mem ((c.tc : Thread nD τ).loc main_v0) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨h c 6,
      (h c 0).trans (((dats m 0 c).arrAt_in 0 rfl _).trans (A_eq m c 0)),
      (h c 1).trans (((dats m 0 c).arrAt_in 1 rfl _).trans (A_eq m c 1))⟩) (run_main m ρ)

/-- The frame: the program runs to its end and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_named m ρ)

end Cert.KernelIdeal.Hand

end
-- ==== Proof.KIValue.lean ====
/-
  What the body's stores leave, read as values (for any float instance). The scratch buffer after the first grid
  point is the first operand's block narrowed to the scratch's format; after any point the output window's
  staging buffer is the five row bands, band s holding the matrix product of the (s+1)-st input window's block
  with the scratch's contents.
-/
import proofs.«115504_g532575945055_cont_9to1_m_783_14_alg».proof.Proof.KILaunch
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz : (![0, 0] : Fin 2 → Nat) = fun _ => 0 := funext fun a => by fin_cases a <;> rfl

/-- The scratch buffer after the first point: the one whole-buffer store's payload, the narrowed first operand. -/
theorem scr_eq (c : Dev nD) : scr m c = k0_pay1 (iblk m c 0 t₀) := by
  unfold scr runFirst
  dsimp only
  sl_unfold_words
  rw [View.canon_unit_zero hz]
  simp only [View.readAt_eq_ld, Memref.IsWhole.read_unread, View.ld_unit_zero (S := S10000x256) hz]

/-- The five stores into the output block, last first: band s at rows 80·s … 80·s + 79 holds the product of input
    window s+1's block with the scratch's contents. -/
def outPieces (c : Dev nD) (t : Fin cfg0.N) : List (View.Piece (Elt F) S400x256 .f32) :=
  [⟨Rect.unit ![320, 0] ![80, 256] inb_S400x256_S80x256_320_0, k0_pay6 (scr m c) (iblk m c 5 t)⟩,
    ⟨Rect.unit ![240, 0] ![80, 256] inb_S400x256_S80x256_240_0, k0_pay5 (scr m c) (iblk m c 4 t)⟩,
    ⟨Rect.unit ![160, 0] ![80, 256] inb_S400x256_S80x256_160_0, k0_pay4 (scr m c) (iblk m c 3 t)⟩,
    ⟨Rect.unit ![80, 0] ![80, 256] inb_S400x256_S80x256_80_0, k0_pay3 (scr m c) (iblk m c 2 t)⟩,
    ⟨Rect.unit ![0, 0] ![80, 256] inb_S400x256_S80x256_0_0, k0_pay2 (scr m c) (iblk m c 1 t)⟩]

/-- Reading the whole scratch buffer back gives what it holds. -/
theorem read_scratch (h : (scM : Memref sig .tc .vmem S10000x256 .bf16).IsWhole) (X : Vec F S10000x256 .bf16) :
    View.read (Elt F) (View.whole cc0_scratch0) (h.unread X) = X := h.read_unread X

theorem outAt_eq_later (c : Dev nD) (t : Fin cfg0.N) (h : ¬ t.val = 0) : outAt m c t = View.canon (outPieces m c t) := by
  rw [outAt_later m c t h]
  unfold runLater outPieces
  dsimp only
  simp only [View.readAt_eq_ld, Memref.IsWhole.read_unread, read_scratch, View.ld_unit_zero (S := S10000x256) hz, View.ld_unit_zero (S := S80x10000) hz]

theorem outAt_eq_first (c : Dev nD) : outAt m c t₀ = View.canon (outPieces m c t₀) := by
  rw [outAt_first m c t₀ rfl]
  unfold outPieces
  rw [scr_eq]
  unfold runFirst
  dsimp only
  sl_unfold_words
  simp only [View.readAt_eq_ld, Memref.IsWhole.read_unread, View.ld_unit_zero (S := S10000x256) hz, View.ld_unit_zero (S := S80x10000) hz,
    View.readCov_unit_zero (S := S10000x256) _ hz]

/-- After every point the output window's staging buffer holds the five bands. -/
theorem outAt_eq (c : Dev nD) (t : Fin cfg0.N) : outAt m c t = View.canon (outPieces m c t) := by
  by_cases h : t.val = 0
  · obtain rfl : t = t₀ := Fin.ext h
    exact outAt_eq_first m c
  · exact outAt_eq_later m c t h

/-- The five bands tile the output block. -/
theorem cover_outPieces (c : Dev nD) (t : Fin cfg0.N) (y : S400x256.Idx) : ∃ p ∈ outPieces m c t, y ∈ p.1.set :=
  View.cover_of_tiledL (outPieces m c t) S80x256.size (by unfold outPieces; sl_kernel_rfl) y

end Cert.KernelIdeal.Hand

end
-- ==== Proof.LibPlainMatmul.lean ====
/-
  A plain matrix product on the extended reals, read at an entry.

  A `tpu.matmul` of an [m, K] operand by a [K, n] operand — axis 1 of the left contracted with axis 0 of the right, no batch
  axis — accumulated into the f32 zero splat, and the host's `dot_general` of the same form, read at (p, q), are the textbook
  entry  Σ_k l(p, k) · r(k, q).  The dimension
  record is taken in literal form (the six axis lists written out over any well-formedness witness), so a printed record of
  that form is an instance by unfolding its name.  The operands' formats are free: at the ideal values every format is the
  extended reals.
-/
import Idealize.ShloMosaic.PureOps.Ideal.Laws
import Idealize.ShloMosaic.Lib.ValueIdx

noncomputable section

namespace Cert.PlainMatmul

open Idealize.ShloMosaic Idealize.ShloMosaic.ValueIdx

/-- The literal record of a plain [m, K] × [K, n] product. -/
abbrev plain {m K n : ℕ}
    (wf : DotDims.WF (⟨2, ![m, K]⟩ : Shape) (⟨2, ![K, n]⟩ : Shape) (⟨2, ![m, n]⟩ : Shape) [1] [0] [0] [1] [] []) :
    DotDims (⟨2, ![m, K]⟩ : Shape) (⟨2, ![K, n]⟩ : Shape) (⟨2, ![m, n]⟩ : Shape) :=
  { lhsContracting := [1], rhsContracting := [0], lhsNonContracting := [0], rhsNonContracting := [1],
    lhsBatch := [], rhsBatch := [], wf := wf }

section
variable {m K n : ℕ}
  (wf : DotDims.WF (⟨2, ![m, K]⟩ : Shape) (⟨2, ![K, n]⟩ : Shape) (⟨2, ![m, n]⟩ : Shape) [1] [0] [0] [1] [] [])
  (j : (⟨2, ![m, n]⟩ : Shape).Idx) (k : (plain wf).contr.Idx)

/-- The left operand's row is the result's row. -/
theorem lhs_row : ((plain wf).lhsIdx j k 0).val = (j 0).val := by
  unfold DotDims.lhsIdx
  rw [dif_neg (show ¬(0 : Fin (⟨2, ![m, K]⟩ : Shape).rank) ∈ (plain wf).lhsBatch from List.not_mem_nil),
    dif_pos (show (0 : Fin (⟨2, ![m, K]⟩ : Shape).rank) ∈ (plain wf).lhsNonContracting from List.mem_singleton.mpr rfl)]
  rfl

/-- The left operand's column is the contracted coordinate. -/
theorem lhs_col : ((plain wf).lhsIdx j k 1).val = (k ⟨0, Nat.one_pos⟩).val :=
  (plain wf).lhsIdx_val_of_single rfl j k

/-- The right operand's row is the contracted coordinate. -/
theorem rhs_row : ((plain wf).rhsIdx j k 0).val = (k ⟨0, Nat.one_pos⟩).val :=
  (plain wf).rhsIdx_val_of_single rfl j k

/-- The right operand's column is the result's column. -/
theorem rhs_col : ((plain wf).rhsIdx j k 1).val = (j 1).val := by
  unfold DotDims.rhsIdx
  rw [dif_neg (show ¬(1 : Fin (⟨2, ![K, n]⟩ : Shape).rank) ∈ (plain wf).rhsBatch from List.not_mem_nil),
    dif_pos (show (1 : Fin (⟨2, ![K, n]⟩ : Shape).rank) ∈ (plain wf).rhsNonContracting from List.mem_singleton.mpr rfl)]
  rfl

end

/-- The sum over the record's contraction index, re-indexed by the contracted coordinate. -/
theorem contr_sum {m K n : ℕ}
    (wf : DotDims.WF (⟨2, ![m, K]⟩ : Shape) (⟨2, ![K, n]⟩ : Shape) (⟨2, ![m, n]⟩ : Shape) [1] [0] [0] [1] [] [])
    (l : (⟨2, ![m, K]⟩ : Shape).Idx → EReal) (r : (⟨2, ![K, n]⟩ : Shape).Idx → EReal) (p : Fin m) (q : Fin n) :
    (∑ k : (plain wf).contr.Idx, l ((plain wf).lhsIdx (ix2 p q) k) * r ((plain wf).rhsIdx (ix2 p q) k))
      = ∑ k : Fin K, l (ix2 p k) * r (ix2 k q) := by
  rw [← Equiv.sum_comp (contrEquiv1 (plain wf) K rfl rfl).symm]
  refine Finset.sum_congr rfl fun k _ => ?_
  have hk := contrEquiv1_symm_val (plain wf) K rfl rfl k
  have el : (plain wf).lhsIdx (ix2 p q) ((contrEquiv1 (plain wf) K rfl rfl).symm k) = ix2 p k :=
    funext fun a => Fin.ext (by
      match a with
      | ⟨0, _⟩ => exact lhs_row wf _ _
      | ⟨1, _⟩ => exact (lhs_col wf _ _).trans hk)
  have er : (plain wf).rhsIdx (ix2 p q) ((contrEquiv1 (plain wf) K rfl rfl).symm k) = ix2 k q :=
    funext fun a => Fin.ext (by
      match a with
      | ⟨0, _⟩ => exact (rhs_row wf _ _).trans hk
      | ⟨1, _⟩ => exact rhs_col wf _ _)
  rw [el, er]

/-- Entry (p, q) of a kernel's product into the zero splat is the sum over the contracted axis of the entries' products. -/
theorem matmul_zero_apply {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision)
    (l : FVec Ideal (⟨2, ![m, K]⟩ : Shape) φ₁) (r : FVec Ideal (⟨2, ![K, n]⟩ : Shape) φ₂) (p : Fin m) (q : Fin n) :
    FloatOps.matmul (plain wf) prec l r (constant (⟨2, ![m, n]⟩ : Shape) .f32 0x00000000#32) (ix2 p q)
      = ∑ k : Fin K, l (ix2 p k) * r (ix2 k q) := by
  rw [Ideal.matmul_constant_zero_apply]
  exact contr_sum wf l r p q

/-- Entry (p, q) of the host's `dot_general` of the same form, under any schedule key, is the same sum. -/
theorem dotGeneral_apply {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision) (sched : HostSchedule)
    (l : FVec Ideal (⟨2, ![m, K]⟩ : Shape) φ₁) (r : FVec Ideal (⟨2, ![K, n]⟩ : Shape) φ₂) (p : Fin m) (q : Fin n) :
    FloatOps.dotGeneral (plain wf) prec sched l r (ix2 p q) = ∑ k : Fin K, l (ix2 p k) * r (ix2 k q) := by
  rw [Ideal.dotGeneral_apply]
  exact contr_sum wf l r p q

end Cert.PlainMatmul

end
-- ==== Proof.Spec.lean ====
/-
  The specification: the product of a 10000 × 10000 matrix with a 10000 × 256 matrix over the extended reals,
  entry by entry.  Entry (r, j) is the sum over k of a(r, k) · f(k, j).
-/
import Idealize.ShloMosaic.PureOps.Ideal
import Idealize.ShloMosaic.Lib.ValueIdx

noncomputable section

namespace Cert.Spec

open Idealize.ShloMosaic Idealize.ShloMosaic.ValueIdx

/-- The matrix product `a · f`: entry `i = (r, j)` is `Σ_k a(r, k) · f(k, j)`. -/
def prod (f : (⟨2, ![10000, 256]⟩ : Shape).Idx → EReal) (a : (⟨2, ![10000, 10000]⟩ : Shape).Idx → EReal) :
    (⟨2, ![10000, 256]⟩ : Shape).Idx → EReal :=
  fun i => ∑ k : Fin 10000, a (ix2 (i 0) k) * f (ix2 k (i 1))

end Cert.Spec

end
-- ==== Proof.KIValueIdeal.lean ====
/-
  The kernel computes the specification. At the ideal values narrowing is the identity, so the scratch holds the
  first argument itself; a band's product read at an entry is the sum over the contracted axis of the entries'
  products; input window s+1's block at point t is rows 80·(5t + s) … of the second argument, and band s of the
  output block at point t is rows 400·t + 80·s … of the result. So every point writes back its block of the one
  matrix product, the blocks cover the result array, and the result array ends at the product.
-/
import proofs.«115504_g532575945055_cont_9to1_m_783_14_alg».proof.Proof.KIValue
import proofs.«115504_g532575945055_cont_9to1_m_783_14_alg».proof.Proof.LibPlainMatmul
import proofs.«115504_g532575945055_cont_9to1_m_783_14_alg».proof.Proof.Spec

set_option maxRecDepth 16384

noncomputable section

namespace Cert.KernelIdeal.HandValue

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen Cert.KernelIdeal.Hand

variable (m : (ℓ : Loc nD τ sig) → Buf (Elt Ideal) ℓ) (ρ : Dev nD → PrngReg)

/-- The printed index maps over the grid: the first operand's window stays at block (0, 0); input window s+1 is at
    block row 5t + s; the output window at block row t. -/
theorem idx_facts : ∀ t : Fin cfg0.N,
    win0_0.index t (0 : Fin 2) = 0 ∧ win0_0.index t (1 : Fin 2) = 0
    ∧ win0_1.index t (0 : Fin 2) = 5 * t.val + 0 ∧ win0_1.index t (1 : Fin 2) = 0
    ∧ win0_2.index t (0 : Fin 2) = 5 * t.val + 1 ∧ win0_2.index t (1 : Fin 2) = 0
    ∧ win0_3.index t (0 : Fin 2) = 5 * t.val + 2 ∧ win0_3.index t (1 : Fin 2) = 0
    ∧ win0_4.index t (0 : Fin 2) = 5 * t.val + 3 ∧ win0_4.index t (1 : Fin 2) = 0
    ∧ win0_5.index t (0 : Fin 2) = 5 * t.val + 4 ∧ win0_5.index t (1 : Fin 2) = 0
    ∧ win0_6.index t (0 : Fin 2) = t.val ∧ win0_6.index t (1 : Fin 2) = 0 :=
  (by decide +kernel : ∀ t : Fin grid0.N, _)

/-- At the ideal values the narrowing store's payload is its operand. -/
theorem pay1_apply (x : Vec Ideal S10000x256 .f32) (i : S10000x256.Idx) : k0_pay1 (F := Ideal) x i = x i := by
  unfold k0_pay1
  rw [shapeCast_self]
  rfl

theorem pay2_apply (v3 : Vec Ideal S10000x256 .bf16) (v4 : Vec Ideal S80x10000 .f32) (p : Fin 80) (q : Fin 256) :
    k0_pay2 (F := Ideal) v3 v4 (ix2 p q) = ∑ k : Fin 10000, v4 (ix2 p k) * v3 (ix2 k q) := by
  unfold k0_pay2
  exact Cert.PlainMatmul.matmul_zero_apply Facts₀.dot_S80x10000_S10000x256_S80x256_1_0_0_1_n_n_wf none v4 v3 p q

theorem pay3_apply (v3 : Vec Ideal S10000x256 .bf16) (v4 : Vec Ideal S80x10000 .f32) (p : Fin 80) (q : Fin 256) :
    k0_pay3 (F := Ideal) v3 v4 (ix2 p q) = ∑ k : Fin 10000, v4 (ix2 p k) * v3 (ix2 k q) := by
  unfold k0_pay3
  exact Cert.PlainMatmul.matmul_zero_apply Facts₀.dot_S80x10000_S10000x256_S80x256_1_0_0_1_n_n_wf none v4 v3 p q

theorem pay4_apply (v3 : Vec Ideal S10000x256 .bf16) (v4 : Vec Ideal S80x10000 .f32) (p : Fin 80) (q : Fin 256) :
    k0_pay4 (F := Ideal) v3 v4 (ix2 p q) = ∑ k : Fin 10000, v4 (ix2 p k) * v3 (ix2 k q) := by
  unfold k0_pay4
  exact Cert.PlainMatmul.matmul_zero_apply Facts₀.dot_S80x10000_S10000x256_S80x256_1_0_0_1_n_n_wf none v4 v3 p q

theorem pay5_apply (v3 : Vec Ideal S10000x256 .bf16) (v4 : Vec Ideal S80x10000 .f32) (p : Fin 80) (q : Fin 256) :
    k0_pay5 (F := Ideal) v3 v4 (ix2 p q) = ∑ k : Fin 10000, v4 (ix2 p k) * v3 (ix2 k q) := by
  unfold k0_pay5
  exact Cert.PlainMatmul.matmul_zero_apply Facts₀.dot_S80x10000_S10000x256_S80x256_1_0_0_1_n_n_wf none v4 v3 p q

theorem pay6_apply (v3 : Vec Ideal S10000x256 .bf16) (v4 : Vec Ideal S80x10000 .f32) (p : Fin 80) (q : Fin 256) :
    k0_pay6 (F := Ideal) v3 v4 (ix2 p q) = ∑ k : Fin 10000, v4 (ix2 p k) * v3 (ix2 k q) := by
  unfold k0_pay6
  exact Cert.PlainMatmul.matmul_zero_apply Facts₀.dot_S80x10000_S10000x256_S80x256_1_0_0_1_n_n_wf none v4 v3 p q

/-- Band 0 of the block point `t` stores is rows 400·t + 0 … of the product: input window 1's block is rows
    80·(5t + 0) … of the second argument, and the scratch holds the whole first argument. -/
theorem band0 (c : Dev nD) (t : Fin cfg0.N) (x : (⟨2, ![80, 256]⟩ : Shape).Idx) :
    k0_pay2 (F := Ideal) (scr m c) (iblk m c 1 t) x
      = Cert.Spec.prod (V m c main_arg0) (V m c main_arg1)
          (((cfg0.win 6).blk t).view.emb ((Rect.unit (s := S400x256) ![0, 0] ![80, 256] Facts₀.inb_S400x256_S80x256_0_0).emb x)) := by
  obtain ⟨e00, e01, e10, e11, e20, e21, e30, e31, e40, e41, e50, e51, e60, e61⟩ := idx_facts t
  obtain ⟨f00, f01, -⟩ := idx_facts t₀
  obtain ⟨p, q, rfl⟩ : ∃ (p : Fin 80) (q : Fin 256), x = ix2 p q := ⟨x 0, x 1, eq_ix2 x⟩
  refine (pay2_apply (scr m c) (iblk m c 1 t) p q).trans ?_
  unfold Cert.Spec.prod
  refine Finset.sum_congr rfl fun k _ => ?_
  have hl : iblk m c 1 t (ix2 p k) = V m c main_arg1 (ix2 ((((cfg0.win 6).blk t).view.emb ((Rect.unit (s := S400x256) ![0, 0] ![80, 256] Facts₀.inb_S400x256_S80x256_0_0).emb (ix2 p q))) 0) k) := by
    show V m c main_arg1 (((cfg0.win 1).blk t).view.emb (ix2 p k)) = V m c main_arg1 _
    refine congrArg (V m c main_arg1) (funext fun a => Fin.ext ?_)
    match a with
    | ⟨0, _⟩ => show win0_1.index t (0 : Fin 2) * 80 + 1 * p.val = win0_6.index t (0 : Fin 2) * 400 + 1 * (0 + 1 * p.val); omega
    | ⟨1, _⟩ => show win0_1.index t (1 : Fin 2) * 10000 + 1 * k.val = k.val; omega
  have hr : scr m c (ix2 k q) = V m c main_arg0 (ix2 k ((((cfg0.win 6).blk t).view.emb ((Rect.unit (s := S400x256) ![0, 0] ![80, 256] Facts₀.inb_S400x256_S80x256_0_0).emb (ix2 p q))) 1)) := by
    refine (congrFun (scr_eq m c) (ix2 k q)).trans ((pay1_apply (iblk m c 0 t₀) (ix2 k q)).trans ?_)
    show V m c main_arg0 (((cfg0.win 0).blk t₀).view.emb (ix2 k q)) = V m c main_arg0 _
    refine congrArg (V m c main_arg0) (funext fun a => Fin.ext ?_)
    match a with
    | ⟨0, _⟩ => show win0_0.index t₀ (0 : Fin 2) * 10000 + 1 * k.val = k.val; omega
    | ⟨1, _⟩ => show win0_0.index t₀ (1 : Fin 2) * 256 + 1 * q.val = win0_6.index t (1 : Fin 2) * 256 + 1 * (0 + 1 * q.val); omega
  rw [hl, hr]

/-- Band 1 of the block point `t` stores is rows 400·t + 80 … of the product: input window 2's block is rows
    80·(5t + 1) … of the second argument, and the scratch holds the whole first argument. -/
theorem band1 (c : Dev nD) (t : Fin cfg0.N) (x : (⟨2, ![80, 256]⟩ : Shape).Idx) :
    k0_pay3 (F := Ideal) (scr m c) (iblk m c 2 t) x
      = Cert.Spec.prod (V m c main_arg0) (V m c main_arg1)
          (((cfg0.win 6).blk t).view.emb ((Rect.unit (s := S400x256) ![80, 0] ![80, 256] Facts₀.inb_S400x256_S80x256_80_0).emb x)) := by
  obtain ⟨e00, e01, e10, e11, e20, e21, e30, e31, e40, e41, e50, e51, e60, e61⟩ := idx_facts t
  obtain ⟨f00, f01, -⟩ := idx_facts t₀
  obtain ⟨p, q, rfl⟩ : ∃ (p : Fin 80) (q : Fin 256), x = ix2 p q := ⟨x 0, x 1, eq_ix2 x⟩
  refine (pay3_apply (scr m c) (iblk m c 2 t) p q).trans ?_
  unfold Cert.Spec.prod
  refine Finset.sum_congr rfl fun k _ => ?_
  have hl : iblk m c 2 t (ix2 p k) = V m c main_arg1 (ix2 ((((cfg0.win 6).blk t).view.emb ((Rect.unit (s := S400x256) ![80, 0] ![80, 256] Facts₀.inb_S400x256_S80x256_80_0).emb (ix2 p q))) 0) k) := by
    show V m c main_arg1 (((cfg0.win 2).blk t).view.emb (ix2 p k)) = V m c main_arg1 _
    refine congrArg (V m c main_arg1) (funext fun a => Fin.ext ?_)
    match a with
    | ⟨0, _⟩ => show win0_2.index t (0 : Fin 2) * 80 + 1 * p.val = win0_6.index t (0 : Fin 2) * 400 + 1 * (80 + 1 * p.val); omega
    | ⟨1, _⟩ => show win0_2.index t (1 : Fin 2) * 10000 + 1 * k.val = k.val; omega
  have hr : scr m c (ix2 k q) = V m c main_arg0 (ix2 k ((((cfg0.win 6).blk t).view.emb ((Rect.unit (s := S400x256) ![80, 0] ![80, 256] Facts₀.inb_S400x256_S80x256_80_0).emb (ix2 p q))) 1)) := by
    refine (congrFun (scr_eq m c) (ix2 k q)).trans ((pay1_apply (iblk m c 0 t₀) (ix2 k q)).trans ?_)
    show V m c main_arg0 (((cfg0.win 0).blk t₀).view.emb (ix2 k q)) = V m c main_arg0 _
    refine congrArg (V m c main_arg0) (funext fun a => Fin.ext ?_)
    match a with
    | ⟨0, _⟩ => show win0_0.index t₀ (0 : Fin 2) * 10000 + 1 * k.val = k.val; omega
    | ⟨1, _⟩ => show win0_0.index t₀ (1 : Fin 2) * 256 + 1 * q.val = win0_6.index t (1 : Fin 2) * 256 + 1 * (0 + 1 * q.val); omega
  rw [hl, hr]

/-- Band 2 of the block point `t` stores is rows 400·t + 160 … of the product: input window 3's block is rows
    80·(5t + 2) … of the second argument, and the scratch holds the whole first argument. -/
theorem band2 (c : Dev nD) (t : Fin cfg0.N) (x : (⟨2, ![80, 256]⟩ : Shape).Idx) :
    k0_pay4 (F := Ideal) (scr m c) (iblk m c 3 t) x
      = Cert.Spec.prod (V m c main_arg0) (V m c main_arg1)
          (((cfg0.win 6).blk t).view.emb ((Rect.unit (s := S400x256) ![160, 0] ![80, 256] Facts₀.inb_S400x256_S80x256_160_0).emb x)) := by
  obtain ⟨e00, e01, e10, e11, e20, e21, e30, e31, e40, e41, e50, e51, e60, e61⟩ := idx_facts t
  obtain ⟨f00, f01, -⟩ := idx_facts t₀
  obtain ⟨p, q, rfl⟩ : ∃ (p : Fin 80) (q : Fin 256), x = ix2 p q := ⟨x 0, x 1, eq_ix2 x⟩
  refine (pay4_apply (scr m c) (iblk m c 3 t) p q).trans ?_
  unfold Cert.Spec.prod
  refine Finset.sum_congr rfl fun k _ => ?_
  have hl : iblk m c 3 t (ix2 p k) = V m c main_arg1 (ix2 ((((cfg0.win 6).blk t).view.emb ((Rect.unit (s := S400x256) ![160, 0] ![80, 256] Facts₀.inb_S400x256_S80x256_160_0).emb (ix2 p q))) 0) k) := by
    show V m c main_arg1 (((cfg0.win 3).blk t).view.emb (ix2 p k)) = V m c main_arg1 _
    refine congrArg (V m c main_arg1) (funext fun a => Fin.ext ?_)
    match a with
    | ⟨0, _⟩ => show win0_3.index t (0 : Fin 2) * 80 + 1 * p.val = win0_6.index t (0 : Fin 2) * 400 + 1 * (160 + 1 * p.val); omega
    | ⟨1, _⟩ => show win0_3.index t (1 : Fin 2) * 10000 + 1 * k.val = k.val; omega
  have hr : scr m c (ix2 k q) = V m c main_arg0 (ix2 k ((((cfg0.win 6).blk t).view.emb ((Rect.unit (s := S400x256) ![160, 0] ![80, 256] Facts₀.inb_S400x256_S80x256_160_0).emb (ix2 p q))) 1)) := by
    refine (congrFun (scr_eq m c) (ix2 k q)).trans ((pay1_apply (iblk m c 0 t₀) (ix2 k q)).trans ?_)
    show V m c main_arg0 (((cfg0.win 0).blk t₀).view.emb (ix2 k q)) = V m c main_arg0 _
    refine congrArg (V m c main_arg0) (funext fun a => Fin.ext ?_)
    match a with
    | ⟨0, _⟩ => show win0_0.index t₀ (0 : Fin 2) * 10000 + 1 * k.val = k.val; omega
    | ⟨1, _⟩ => show win0_0.index t₀ (1 : Fin 2) * 256 + 1 * q.val = win0_6.index t (1 : Fin 2) * 256 + 1 * (0 + 1 * q.val); omega
  rw [hl, hr]

/-- Band 3 of the block point `t` stores is rows 400·t + 240 … of the product: input window 4's block is rows
    80·(5t + 3) … of the second argument, and the scratch holds the whole first argument. -/
theorem band3 (c : Dev nD) (t : Fin cfg0.N) (x : (⟨2, ![80, 256]⟩ : Shape).Idx) :
    k0_pay5 (F := Ideal) (scr m c) (iblk m c 4 t) x
      = Cert.Spec.prod (V m c main_arg0) (V m c main_arg1)
          (((cfg0.win 6).blk t).view.emb ((Rect.unit (s := S400x256) ![240, 0] ![80, 256] Facts₀.inb_S400x256_S80x256_240_0).emb x)) := by
  obtain ⟨e00, e01, e10, e11, e20, e21, e30, e31, e40, e41, e50, e51, e60, e61⟩ := idx_facts t
  obtain ⟨f00, f01, -⟩ := idx_facts t₀
  obtain ⟨p, q, rfl⟩ : ∃ (p : Fin 80) (q : Fin 256), x = ix2 p q := ⟨x 0, x 1, eq_ix2 x⟩
  refine (pay5_apply (scr m c) (iblk m c 4 t) p q).trans ?_
  unfold Cert.Spec.prod
  refine Finset.sum_congr rfl fun k _ => ?_
  have hl : iblk m c 4 t (ix2 p k) = V m c main_arg1 (ix2 ((((cfg0.win 6).blk t).view.emb ((Rect.unit (s := S400x256) ![240, 0] ![80, 256] Facts₀.inb_S400x256_S80x256_240_0).emb (ix2 p q))) 0) k) := by
    show V m c main_arg1 (((cfg0.win 4).blk t).view.emb (ix2 p k)) = V m c main_arg1 _
    refine congrArg (V m c main_arg1) (funext fun a => Fin.ext ?_)
    match a with
    | ⟨0, _⟩ => show win0_4.index t (0 : Fin 2) * 80 + 1 * p.val = win0_6.index t (0 : Fin 2) * 400 + 1 * (240 + 1 * p.val); omega
    | ⟨1, _⟩ => show win0_4.index t (1 : Fin 2) * 10000 + 1 * k.val = k.val; omega
  have hr : scr m c (ix2 k q) = V m c main_arg0 (ix2 k ((((cfg0.win 6).blk t).view.emb ((Rect.unit (s := S400x256) ![240, 0] ![80, 256] Facts₀.inb_S400x256_S80x256_240_0).emb (ix2 p q))) 1)) := by
    refine (congrFun (scr_eq m c) (ix2 k q)).trans ((pay1_apply (iblk m c 0 t₀) (ix2 k q)).trans ?_)
    show V m c main_arg0 (((cfg0.win 0).blk t₀).view.emb (ix2 k q)) = V m c main_arg0 _
    refine congrArg (V m c main_arg0) (funext fun a => Fin.ext ?_)
    match a with
    | ⟨0, _⟩ => show win0_0.index t₀ (0 : Fin 2) * 10000 + 1 * k.val = k.val; omega
    | ⟨1, _⟩ => show win0_0.index t₀ (1 : Fin 2) * 256 + 1 * q.val = win0_6.index t (1 : Fin 2) * 256 + 1 * (0 + 1 * q.val); omega
  rw [hl, hr]

/-- Band 4 of the block point `t` stores is rows 400·t + 320 … of the product: input window 5's block is rows
    80·(5t + 4) … of the second argument, and the scratch holds the whole first argument. -/
theorem band4 (c : Dev nD) (t : Fin cfg0.N) (x : (⟨2, ![80, 256]⟩ : Shape).Idx) :
    k0_pay6 (F := Ideal) (scr m c) (iblk m c 5 t) x
      = Cert.Spec.prod (V m c main_arg0) (V m c main_arg1)
          (((cfg0.win 6).blk t).view.emb ((Rect.unit (s := S400x256) ![320, 0] ![80, 256] Facts₀.inb_S400x256_S80x256_320_0).emb x)) := by
  obtain ⟨e00, e01, e10, e11, e20, e21, e30, e31, e40, e41, e50, e51, e60, e61⟩ := idx_facts t
  obtain ⟨f00, f01, -⟩ := idx_facts t₀
  obtain ⟨p, q, rfl⟩ : ∃ (p : Fin 80) (q : Fin 256), x = ix2 p q := ⟨x 0, x 1, eq_ix2 x⟩
  refine (pay6_apply (scr m c) (iblk m c 5 t) p q).trans ?_
  unfold Cert.Spec.prod
  refine Finset.sum_congr rfl fun k _ => ?_
  have hl : iblk m c 5 t (ix2 p k) = V m c main_arg1 (ix2 ((((cfg0.win 6).blk t).view.emb ((Rect.unit (s := S400x256) ![320, 0] ![80, 256] Facts₀.inb_S400x256_S80x256_320_0).emb (ix2 p q))) 0) k) := by
    show V m c main_arg1 (((cfg0.win 5).blk t).view.emb (ix2 p k)) = V m c main_arg1 _
    refine congrArg (V m c main_arg1) (funext fun a => Fin.ext ?_)
    match a with
    | ⟨0, _⟩ => show win0_5.index t (0 : Fin 2) * 80 + 1 * p.val = win0_6.index t (0 : Fin 2) * 400 + 1 * (320 + 1 * p.val); omega
    | ⟨1, _⟩ => show win0_5.index t (1 : Fin 2) * 10000 + 1 * k.val = k.val; omega
  have hr : scr m c (ix2 k q) = V m c main_arg0 (ix2 k ((((cfg0.win 6).blk t).view.emb ((Rect.unit (s := S400x256) ![320, 0] ![80, 256] Facts₀.inb_S400x256_S80x256_320_0).emb (ix2 p q))) 1)) := by
    refine (congrFun (scr_eq m c) (ix2 k q)).trans ((pay1_apply (iblk m c 0 t₀) (ix2 k q)).trans ?_)
    show V m c main_arg0 (((cfg0.win 0).blk t₀).view.emb (ix2 k q)) = V m c main_arg0 _
    refine congrArg (V m c main_arg0) (funext fun a => Fin.ext ?_)
    match a with
    | ⟨0, _⟩ => show win0_0.index t₀ (0 : Fin 2) * 10000 + 1 * k.val = k.val; omega
    | ⟨1, _⟩ => show win0_0.index t₀ (1 : Fin 2) * 256 + 1 * q.val = win0_6.index t (1 : Fin 2) * 256 + 1 * (0 + 1 * q.val); omega
  rw [hl, hr]
/-- What point `t` writes back is block `t` of the product of the argument arrays. -/
theorem flushed_eq (c : Dev nD) (t : Fin cfg0.N) :
    (dats m 0 c).flushed 6 t
      = ((cfg0.win 6).blk t).view.read (Elt Ideal) (Cert.Spec.prod (V m c main_arg0) (V m c main_arg1)) := by
  show (cfg0.win 6).cut (grid0.coords t) ((dats m 0 c).after 6 t) = _
  rw [after0_6, outAt_eq]
  funext y
  show View.canon (outPieces m c t) y = Cert.Spec.prod (V m c main_arg0) (V m c main_arg1) (((cfg0.win 6).blk t).view.emb y)
  refine View.canon_apply_of_pieces
    (fun y => Cert.Spec.prod (V m c main_arg0) (V m c main_arg1) (((cfg0.win 6).blk t).view.emb y))
    (outPieces m c t) ?_ y (cover_outPieces m c t y)
  intro p hp x
  simp only [outPieces, List.mem_cons, List.not_mem_nil, or_false] at hp
  rcases hp with rfl | rfl | rfl | rfl | rfl
  · exact band4 m c t x
  · exact band3 m c t x
  · exact band2 m c t x
  · exact band1 m c t x
  · exact band0 m c t x

/-- An index of the result array is in point `t`'s block iff each coordinate is in the block's range. -/
theorem mem_blk6 (t : Fin cfg0.N) (i : S10000x256.Idx) :
    i ∈ ((cfg0.win 6).blk t).view.set ↔ ∀ a : Fin 2, win0_6.index t a * S400x256.size a ≤ (i a).val ∧ (i a).val < win0_6.index t a * S400x256.size a + S400x256.size a := by
  show i ∈ ((View.whole main_v0).slice (win0_6.rect t)).set ↔ _
  rw [View.set_slice_whole, Rect.mem_set_unit]
  exact Iff.rfl

/-- Every row of the result array lies in the block of the point that is the row divided by 400. -/
theorem cover6 (i : S10000x256.Idx) : ∃ t : Fin cfg0.N, (cfg0.win 6).flush t = true ∧ i ∈ ((cfg0.win 6).blk t).view.set := by
  have hi0 : (i 0).val < 10000 := (i 0).isLt
  have hi1 : (i 1).val < 256 := (i 1).isLt
  have hN : cfg0.N = 25 := N_0
  have ht : (i 0).val / 400 < cfg0.N := by omega
  obtain ⟨-, -, -, -, -, -, -, -, -, -, -, -, e60, e61⟩ := idx_facts ⟨(i 0).val / 400, ht⟩
  refine ⟨⟨(i 0).val / 400, ht⟩, flush0_6 _, ?_⟩
  rw [mem_blk6]
  intro a
  match a with
  | ⟨0, _⟩ =>
    show win0_6.index ⟨(i 0).val / 400, ht⟩ (0 : Fin 2) * 400 ≤ (i 0).val ∧ (i 0).val < win0_6.index ⟨(i 0).val / 400, ht⟩ (0 : Fin 2) * 400 + 400
    rw [e60]; dsimp only; omega
  | ⟨1, _⟩ =>
    show win0_6.index ⟨(i 0).val / 400, ht⟩ (1 : Fin 2) * 256 ≤ (i 1).val ∧ (i 1).val < win0_6.index ⟨(i 0).val / 400, ht⟩ (1 : Fin 2) * 256 + 256
    rw [e61]; omega

/-- The result array after the run is the matrix product of the argument arrays. -/
theorem final (c : Dev nD) : (dats m 0 c).arrAt 6 cfg0.N = Cert.Spec.prod (V m c main_arg0) (V m c main_arg1) :=
  (dats m 0 c).arrAt_eq_of_cover 6 _ (fun t _ => flushed_eq m c t) cover6

/-- The run of the idealized kernel with its result named: the matrix product of the second argument with the first. -/
theorem run : θ_run defs (onTc (τ := τ) (main (F := Ideal))) ⟨m, fun _ => 0, ρ⟩ (fun r => ∀ c : Dev nD,
      r.2.mem ((c.tc : Thread nD τ).loc main_v0)
        = Cert.Spec.prod (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (final m c), (h c).2⟩) (run_named m ρ)

end Cert.KernelIdeal.HandValue

end
-- ==== Proof.RefSide.lean ====
/-
  The reference computes the specification: its one host operation is the matrix product of the second argument
  with the first, and read at an entry it is the sum over the contracted axis of the entries' products.
-/
import proofs.«115504_g532575945055_cont_9to1_m_783_14_alg».proof.Proof.Gen.ReferenceIdeal.Read
import proofs.«115504_g532575945055_cont_9to1_m_783_14_alg».proof.Proof.Spec

noncomputable section

namespace Cert.ReferenceIdeal.RefValue

open Cert.ReferenceIdeal Cert.ReferenceIdeal.Gen Idealize.ShloMosaic Idealize.ShloMosaic.ValueIdx

/-- The reference's result, as a function of the two argument arrays, is the matrix product. -/
theorem ref_eq (x0 : (⟨S10000x256, .f32⟩ : BufTy).Contents (Elt Ideal)) (x1 : (⟨S10000x10000, .f32⟩ : BufTy).Contents (Elt Ideal)) :
    Read.val_main_v0 (F := Ideal) x0 x1 = Cert.Spec.prod x0 x1 := by
  funext i
  rw [Read.val_main_v0_apply]
  unfold Cert.Spec.prod
  refine Finset.sum_congr rfl fun k _ => ?_
  have el : Read.lidx_main_v0 i k = ix2 (i 0) k := funext fun a => by
    match a with
    | ⟨0, _⟩ => rfl
    | ⟨1, _⟩ => rfl
  have er : Read.ridx_main_v0 i k = ix2 k (i 1) := funext fun a => by
    match a with
    | ⟨0, _⟩ => rfl
    | ⟨1, _⟩ => rfl
  rw [el, er]
  rfl

end Cert.ReferenceIdeal.RefValue

end
-- ==== Proof.lean ====
/-
  The certificate's five claims.

  The kernel multiplies the 10000 × 10000 second argument by the 10000 × 256 first argument, 400 rows per grid point:
  five input windows each stage 80 rows of the second argument, the first argument stays resident and is narrowed
  once into a scratch buffer that every later point reads, and each point stores five 80-row products into its
  output block. The reference is one matrix product. At the ideal values narrowing is the identity and both sides
  are, entry by entry, the sum over k of a(r, k) · f(k, j) — no law of the extended reals is needed beyond
  reading each product as that sum, so the precondition is never opened.

  The frames of the kernel and of its idealization are one proof stated for any float instance: the launch theorem
  for windows that share an array, the second argument's buffer dealt among its five windows. The reference's frame
  is its run with the result dropped. The idealization rewrote nothing, so the preservation claim is trivial.
-/
import proofs.«115504_g532575945055_cont_9to1_m_783_14_alg».proof.Defs
import proofs.«115504_g532575945055_cont_9to1_m_783_14_alg».proof.Proof.Gen.Kernel
import proofs.«115504_g532575945055_cont_9to1_m_783_14_alg».proof.Proof.Gen.KernelIdeal
import proofs.«115504_g532575945055_cont_9to1_m_783_14_alg».proof.Proof.Gen.ReferenceIdeal
import proofs.«115504_g532575945055_cont_9to1_m_783_14_alg».proof.Proof.Gen.Pre_finite_inputs
import proofs.«115504_g532575945055_cont_9to1_m_783_14_alg».proof.Proof.KLaunch
import proofs.«115504_g532575945055_cont_9to1_m_783_14_alg».proof.Proof.KIValueIdeal
import proofs.«115504_g532575945055_cont_9to1_m_783_14_alg».proof.Proof.RefSide
import Idealize.ShloMosaic.Adequacy
import Idealize.ShloMosaic.Init

noncomputable section

namespace Cert.Proof

open Idealize.ShloMosaic Idealize.ShloMosaic.TcCoe Idealize.SL.Sem

/-- The kernel as printed runs to its end and leaves its arguments unchanged. -/
theorem frame_k : Cert.frame_Kernel := fun m ρ _ => Cert.Kernel.Hand.frame (F := Bits) m ρ

/-- So does its idealization. -/
theorem frame_ki : Cert.frame_KernelIdeal := fun m ρ _ => Cert.KernelIdeal.Hand.frame (F := Ideal) m ρ

/-- The reference runs to its end and leaves its arguments unchanged: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs end with the matrix product of the second
    argument with the first as their result. -/
theorem algebraic : Cert.algebraic_KernelIdeal_ReferenceIdeal := by
  intro m ρ m' ρ' _ hagree
  refine ⟨fun c => Cert.Spec.prod (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.HandValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v0_eq, Cert.ReferenceIdeal.RefValue.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
